-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S32x1024x1024 : Shape := ⟨3, ![32, 1024, 1024]⟩
abbrev S1024x1024 : Shape := ⟨2, ![1024, 1024]⟩
abbrev S1024x2048 : Shape := ⟨2, ![1024, 2048]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  main_v18

def fn {F : FTy → Type} [FloatOps F] (main_arg0 : FVec F S32x512x1024 .f32) (main_arg1 : FVec F S32x1024x1024 .f32) (main_arg2 : FVec F S1024x1024 .f32) (main_arg3 : FVec F S1024x2048 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_v13 main_v16
-- ==== Kernel.lean ====
abbrev S32x512x1024 : Shape := ⟨3, ![32, 512, 1024]⟩
abbrev S32x1024x1024 : Shape := ⟨3, ![32, 1024, 1024]⟩
abbrev S1024x1024 : Shape := ⟨2, ![1024, 1024]⟩
abbrev S1024x2048 : Shape := ⟨2, ![1024, 2048]⟩
abbrev S512x32768 : Shape := ⟨2, ![512, 32768]⟩
abbrev S1x256x1024 : Shape := ⟨3, ![1, 256, 1024]⟩
abbrev S1x1024x1024 : Shape := ⟨3, ![1, 1024, 1024]⟩
abbrev S256x1024 : Shape := ⟨2, ![256, 1024]⟩
abbrev S256 : Shape := ⟨1, ![256]⟩
abbrev S256x1 : Shape := ⟨2, ![256, 1]⟩
abbrev S512x32x1024 : Shape := ⟨3, ![512, 32, 1024]⟩

abbrev nBuf : Space → Nat
  | .hbm => 13
  | .vmem => 11
  | .smem => 0
  | _ => 0

abbrev bufTy : (tb : Table) → Fin (tcTables nBuf tb) → BufTy
  | .hbm, ⟨0, _⟩ => ⟨S32x512x1024, .f32⟩
  | .hbm, ⟨1, _⟩ => ⟨S32x1024x1024, .f32⟩
  | .hbm, ⟨2, _⟩ => ⟨S1024x1024, .f32⟩
  | .hbm, ⟨3, _⟩ => ⟨S1024x2048, .f32⟩
  | .hbm, ⟨4, _⟩ => ⟨S1024x1024, .bf16⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S512x32768, .f32⟩
  | .hbm, ⟨10, _⟩ => ⟨S512x32768, .f32⟩
  | .hbm, ⟨11, _⟩ => ⟨S512x32x1024, .f32⟩
  | .hbm, ⟨12, _⟩ => ⟨S512x32x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  slices_S1024x2048_S1024x1024_0_0 : S1024x2048.Slices ![0, 0] S1024x1024
  slices_S1024x2048_S1024x1024_0_1024 : S1024x2048.Slices ![0, 1024] S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S256x1024_S256 : S256x1024.Reduces [1] S256
  shapeCasts_S256_S256x1 : S256.ShapeCasts S256x1
  broadcasts_S256x1_S256x1024 : S256x1.Broadcasts S256x1024
  inb_S256x1024_S256x1024_0_0 : ∀ a, (![0, 0] : Fin 2 → Nat) a + S256x1024.size a ≤ S256x1024.size a
  h_S256x1024 : 0 < S256x1024.numel
  shapeCasts_S512x32768_S512x32x1024 : S512x32768.ShapeCasts S512x32x1024
  dot_S256x1024_S1024x1024_S256x1024_1_1_0_0_n_n_wf : DotDims.WF S256x1024 S1024x1024 S256x1024 [1] [1] [0] [0] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x512x1024.size a
  hwx0_0 : ∀ i : grid0.Coords, EltTy.bits .f32 = 32 ∨ (Rect.block (s := S32x512x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S512x32768.size a
  hwx0_5 : ∀ i : grid0.Coords, EltTy.bits .f32 = 32 ∨ (Rect.block (s := S512x32768) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S512x32768.size a
  hwx0_6 : ∀ i : grid0.Coords, EltTy.bits .f32 = 32 ∨ (Rect.block (s := S512x32768) S256x1024.size (cc0_transform_6 i) (hinb0_6 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x512x1024 : Shape := ⟨3, ![32, 512, 1024]⟩
abbrev S32x1024x1024 : Shape := ⟨3, ![32, 1024, 1024]⟩
abbrev S1024x1024 : Shape := ⟨2, ![1024, 1024]⟩
abbrev S1024x2048 : Shape := ⟨2, ![1024, 2048]⟩
abbrev S_ : Shape := ⟨0, ![]⟩
abbrev S32x512 : Shape := ⟨2, ![32, 512]⟩
abbrev S32x512x1 : Shape := ⟨3, ![32, 512, 1]⟩
abbrev S32x512x2048 : Shape := ⟨3, ![32, 512, 2048]⟩
abbrev S512x32x1024 : Shape := ⟨3, ![512, 32, 1024]⟩

abbrev nBuf : Space → Nat
  | .hbm => 26
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32x1024x1024, .f32⟩
  | .hbm, ⟨2, _⟩ => ⟨S1024x1024, .f32⟩
  | .hbm, ⟨3, _⟩ => ⟨S1024x2048, .f32⟩
  | .hbm, ⟨4, _⟩ => ⟨S32x512x1024, .f32⟩
  | .hbm, ⟨5, _⟩ => ⟨S32x512x1024, .f32⟩
  | .hbm, ⟨6, _⟩ => ⟨S_, .f32⟩
  | .hbm, ⟨7, _⟩ => ⟨S32x512, .f32⟩
  | .hbm, ⟨8, _⟩ => ⟨S_, .f32⟩
  | .hbm, ⟨9, _⟩ => ⟨S32x512, .f32⟩
  | .hbm, ⟨10, _⟩ => ⟨S32x512, .f32⟩
  | .hbm, ⟨11, _⟩ => ⟨S32x512x1, .f32⟩
  | .hbm, ⟨12, _⟩ => ⟨S32x512x1024, .f32⟩
  | .hbm, ⟨13, _⟩ => ⟨S32x512x1024, .f32⟩
  | .hbm, ⟨14, _⟩ => ⟨S32x512x1024, .f32⟩
  | .hbm, ⟨15, _⟩ => ⟨S_, .f32⟩
  | .hbm, ⟨16, _⟩ => ⟨S32x512, .f32⟩
  | .hbm, ⟨17, _⟩ => ⟨S32x512x1, .f32⟩
  | .hbm, ⟨18, _⟩ => ⟨S32x512x1024, .f32⟩
  | .hbm, ⟨19, _⟩ => ⟨S32x512x1024, .f32⟩
  | .hbm, ⟨20, _⟩ => ⟨S32x512x1024, .f32⟩
  | .hbm, ⟨21, _⟩ => ⟨S32x512x2048, .f32⟩
  | .hbm, ⟨22, _⟩ => ⟨S32x512x1024, .f32⟩
  | .hbm, ⟨23, _⟩ => ⟨S32x512x1024, .f32⟩
  | .hbm, ⟨24, _⟩ => ⟨S512x32x1024, .f32⟩
  | .hbm, ⟨25, _⟩ => ⟨S512x32x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S32x512x1024_S32x512_d2 : S32x512x1024.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x1024_0_1_2 : S32x512x1.BroadcastsInDim S32x512x1024 (![0, 1, 2] : Fin 3 → Fin S32x512x1024.rank)
  concatenates_S32x512x1024_S32x512x1024_S32x512x2048_d2 : Shape.Concatenates [S32x512x1024, S32x512x1024] S32x512x2048 2
  transposes_S32x512x1024_S512x32x1024_1_0_2 : S32x512x1024.Transposes [1, 0, 2] S512x32x1024
  dot_S32x512x1024_S1024x1024_S32x512x1024_2_1_01_0_n_n_wf : DotDims.WF S32x512x1024 S1024x1024 S32x512x1024 [2] [1] [0, 1] [0] [] []
  dot_S32x512x1024_S32x1024x1024_S32x512x1024_2_2_1_1_0_0_wf : DotDims.WF S32x512x1024 S32x1024x1024 S32x512x1024 [2] [2] [1] [1] [0] [0]
  dot_S32x512x1024_S32x1024x1024_S32x512x1024_2_1_1_2_0_0_wf : DotDims.WF S32x512x1024 S32x1024x1024 S32x512x1024 [2] [1] [1] [2] [0] [0]
  dot_S32x512x2048_S1024x2048_S32x512x1024_2_1_01_0_n_n_wf : DotDims.WF S32x512x2048 S1024x2048 S32x512x1024 [2] [1] [0, 1] [0] [] []

variable [Facts₀]

def dot_S32x512x1024_S1024x1024_S32x512x1024_2_1_01_0_n_n : DotDims S32x512x1024 S1024x1024 S32x512x1024 where
  lhsContracting := [2]
  rhsContracting := [1]
  lhsNonContracting := [0, 1]
  rhsNonContracting := [0]
  lhsBatch := []
  rhsBatch := []
  wf := dot_S32x512x1024_S1024x1024_S32x512x1024_2_1_01_0_n_n_wf
def dot_S32x512x1024_S32x1024x1024_S32x512x1024_2_2_1_1_0_0 : DotDims S32x512x1024 S32x1024x1024 S32x512x1024 where
  lhsContracting := [2]
  rhsContracting := [2]
  lhsNonContracting := [1]
  rhsNonContracting := [1]
  lhsBatch := [0]
  rhsBatch := [0]
  wf := dot_S32x512x1024_S32x1024x1024_S32x512x1024_2_2_1_1_0_0_wf
def dot_S32x512x1024_S32x1024x1024_S32x512x1024_2_1_1_2_0_0 : DotDims S32x512x1024 S32x1024x1024 S32x512x1024 where
  lhsContracting := [2]
  rhsContracting := [1]
  lhsNonContracting := [1]
  rhsNonContracting := [2]
  lhsBatch := [0]
  rhsBatch := [0]
  wf := dot_S32x512x1024_S32x1024x1024_S32x512x1024_2_1_1_2_0_0_wf
def dot_S32x512x2048_S1024x2048_S32x512x1024_2_1_01_0_n_n : DotDims S32x512x2048 S1024x2048 S32x512x1024 where
  lhsContracting := [2]
  rhsContracting := [1]
  lhsNonContracting := [0, 1]
  rhsNonContracting := [0]
  lhsBatch := []
  rhsBatch := []
  wf := dot_S32x512x2048_S1024x2048_S32x512x1024_2_1_01_0_n_n_wf

class Facts : Prop extends Facts₀ where

variable [Facts]
-- ==== Proof.LibColBroadcast.lean ====
/-
  A COLUMN BROADCAST ACROSS COLUMNS, READ AT AN ELEMENT.

  An array of shape [a, 1] — one number per row — broadcast to shape [a, b] holds, at (p, c), the number of row p,
  whatever the column c.
-/
import Idealize.ShloMosaic.Lib.Pipeline.Value
import Idealize.ShloMosaic.Lib.ValueIdx

noncomputable section

namespace Cert.Lib

open Idealize.ShloMosaic Idealize.ShloMosaic.ValueIdx

/-- A column of a numbers broadcast to an a-by-b array reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibHostRead.lean ====
/-
  HOST LAYOUT OPERATIONS OF A GRAPH PROPAGATION STEP, READ AT AN ELEMENT. Generic in the sizes.

  A propagation step's host side moves per-edge and per-node vectors into the shapes its gather, scatter and
  elementwise products want:
    row r of a [2, E] index table, sliced out as [1, E] and reshaped to [E]            (rowOfPair_apply);
    a vector [E] made a column [E, 1]                                                    (col_apply);
    that column spread along a new feature axis to [E, D]                                (spread_apply, colSpread_apply);
    a scalar spread to any shape                                                         (splat_apply);
    a vector [D] made a row [1, D] by a reshape                                          (rowOfVec_apply).
  Each lemma says which element of the source the result holds at a given element; none depends on the element type.
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

variable {α : Type}

/-- A scalar spread to any shape holds the scalar everywhere. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: the column's element (e, 0) is the vector's element e. -/
theorem col_apply {E : Nat} (dims : Fin (⟨1, ![E]⟩ : Shape).rank → Fin (⟨2, ![E, 1]⟩ : Shape).rank) (hd : dims 0 = 0)
    (h : (⟨1, ![E]⟩ : Shape).BroadcastsInDim ⟨2, ![E, 1]⟩ dims) (v : (⟨1, ![E]⟩ : Shape).Idx → α) (e : Fin E) (z : Fin 1) :
    broadcastInDim ⟨2, ![E, 1]⟩ dims h v (ix2 e z) = v (ix1 e) := by
  refine broadcastInDim_apply dims h v (ix2 e z) (ix1 e) (fun a => ?_)
  match a with
  | ⟨0, _⟩ =>
    show e.val = if E = 1 then 0 else ((ix2 e z) (dims 0)).val
    rw [hd]
    split
    · rename_i h1; have := e.isLt; show e.val = 0; omega
    · rfl

/-- A column spread along a new feature axis: element (e, k) is the column's element (e, 0). -/
theorem spread_apply {E D : Nat} (dims : Fin (⟨2, ![E, 1]⟩ : Shape).rank → Fin (⟨2, ![E, D]⟩ : Shape).rank)
    (hd0 : dims 0 = 0) (hd1 : dims 1 = 1)
    (h : (⟨2, ![E, 1]⟩ : Shape).BroadcastsInDim ⟨2, ![E, D]⟩ dims) (v : (⟨2, ![E, 1]⟩ : Shape).Idx → α) (e : Fin E) (k : Fin D) :
    broadcastInDim ⟨2, ![E, D]⟩ dims h v (ix2 e k) = v (ix2 e (0 : Fin 1)) := by
  refine broadcastInDim_apply dims h v (ix2 e k) (ix2 e (0 : Fin 1)) (fun a => ?_)
  match a with
  | ⟨0, _⟩ =>
    show e.val = if E = 1 then 0 else ((ix2 e k) (dims 0)).val
    rw [hd0]
    split
    · rename_i h1; have := e.isLt; show e.val = 0; omega
    · rfl
  | ⟨1, _⟩ =>
    show (0 : Nat) = if (1 : Nat) = 1 then 0 else ((ix2 e k) (dims 1)).val
    rw [if_pos rfl]

/-- A vector made a column and spread along a feature axis: element (e, k) is the vector's element e. -/
theorem colSpread_apply {E D : Nat} (dims1 : Fin (⟨1, ![E]⟩ : Shape).rank → Fin (⟨2, ![E, 1]⟩ : Shape).rank) (hd : dims1 0 = 0)
    (h1 : (⟨1, ![E]⟩ : Shape).BroadcastsInDim ⟨2, ![E, 1]⟩ dims1)
    (dims2 : Fin (⟨2, ![E, 1]⟩ : Shape).rank → Fin (⟨2, ![E, D]⟩ : Shape).rank) (hd0 : dims2 0 = 0) (hd1 : dims2 1 = 1)
    (h2 : (⟨2, ![E, 1]⟩ : Shape).BroadcastsInDim ⟨2, ![E, D]⟩ dims2) (v : (⟨1, ![E]⟩ : Shape).Idx → α) (e : Fin E) (k : Fin D) :
    broadcastInDim ⟨2, ![E, D]⟩ dims2 h2 (broadcastInDim ⟨2, ![E, 1]⟩ dims1 h1 v) (ix2 e k) = v (ix1 e) := by
  rw [spread_apply dims2 hd0 hd1 h2, col_apply dims1 hd h1]

/-- Row r of a two-row table, sliced out and flattened: element e is the table's element (r, e). -/
theorem rowOfPair_apply {E : Nat} (r : Fin 2) (off : Fin (⟨2, ![2, E]⟩ : Shape).rank → Nat) (ho0 : off 0 = r.val) (ho1 : off 1 = 0)
    (hs : (⟨2, ![2, E]⟩ : Shape).Slices off ⟨2, ![1, E]⟩) (hc : (⟨2, ![1, E]⟩ : Shape).ShapeCasts ⟨1, ![E]⟩)
    (A : (⟨2, ![2, E]⟩ : Shape).Idx → α) (e : Fin E) :
    shapeCast ⟨1, ![E]⟩ (extractStridedSlice ⟨2, ![1, E]⟩ off A hs) hc (ix1 e) = A (ix2 r e) := by
  rw [shapeCast_apply _ hc (ix1 e) (ix2 (0 : Fin 1) e) (by
    rw [Shape.rowMajor_val_two, Shape.rowMajor_val_one]
    show 0 * E + e.val = e.val
    omega)]
  refine extractStridedSlice_apply off A hs (ix2 (0 : Fin 1) e) (ix2 r e) (fun a => ?_)
  match a with
  | ⟨0, _⟩ => show r.val = off 0 + 0; rw [ho0, Nat.add_zero]
  | ⟨1, _⟩ => show e.val = off 1 + e.val; rw [ho1]; omega

/-- A vector made a row by a reshape: the row's element (0, f) is the vector's element f. -/
theorem rowOfVec_apply {D : Nat} (hc : (⟨1, ![D]⟩ : Shape).ShapeCasts ⟨2, ![1, D]⟩) (v : (⟨1, ![D]⟩ : Shape).Idx → α)
    (z : Fin 1) (f : Fin D) : shapeCast ⟨2, ![1, D]⟩ v hc (ix2 z f) = v (ix1 f) := by
  refine shapeCast_apply v hc (ix2 z f) (ix1 f) ?_
  rw [Shape.rowMajor_val_two, Shape.rowMajor_val_one]
  show f.val = z.val * D + f.val
  have := z.isLt
  have hz : z.val = 0 := by omega
  rw [hz]; omega

end Cert.Lib

end
-- ==== Proof.LibSoftmaxRows.lean ====
/-
  SOFTMAX ALONG THE ROWS OF A MATRIX, READ AT AN ELEMENT.

  For a row x of n extended reals put  m = max(-inf, max_k x_k)  (the maximum taken from minus infinity, as both a
  vector reduction and a host reduction take it) and  softmax(x)_d = exp(x_d - m) / sum_k exp(x_k - m).
  A kernel block computes this with a lane maximum, a keep-dims column re-laid and spread over the columns, an
  exponential, a lane sum and a quotient; a host program with a reduce by maximum, a maximum with a splat of minus
  infinity, two broadcasts, an exponential, a reduce by addition from zero and a quotient. Both, read at (r, c) at the
  ideal values, are  softmaxRow (row r) c.
-/
import Idealize.ShloMosaic.PureOps.Ideal.Laws
import Idealize.ShloMosaic.Lib.Pipeline.Value
import Idealize.ShloMosaic.Lib.ValueIdx
import Idealize.ShloMosaic.Lib.IdealHost
import proofs.«165455_j1580547969021_2_alg».proof.Proof.LibColBroadcast
import proofs.«165455_j1580547969021_2_alg».proof.Proof.LibHostRead

noncomputable section

open scoped BigOperators

namespace Cert.Lib

open Idealize.ShloMosaic Idealize.ShloMosaic.ValueIdx

/-- The maximum of a row, taken from minus infinity (the f32 word 0xFF800000) and met once more with it. -/
def rowMax {n : ℕ} (x : Fin n → EReal) : EReal :=
  max (Ideal.ofBits .f32 0xFF800000#32) ((Finset.univ : Finset (Fin n)).fold max (Ideal.ofBits .f32 0xFF800000#32) x)

/-- Softmax of a row at entry d: exp (x d - max) over the sum of exp (x k - max). -/
def softmaxRow {n : ℕ} (x : Fin n → EReal) (d : Fin n) : EReal :=
  Ideal.div (Ideal.exp (x d - rowMax x)) (∑ k : Fin n, Ideal.exp (x k - rowMax x))

/-- Inserting the column k into the row index r of an R-by-C matrix gives (r, k). -/
theorem lift_row {R C : ℕ} (h : (⟨2, ![R, C]⟩ : Shape).Reduces [(1 : Fin 2)] ⟨1, ![R]⟩) (r : Fin R)
    (k : Fin ((⟨2, ![R, C]⟩ : Shape).size (1 : Fin 2))) :
    h.lift (ix1 r) k = ix2 r (⟨k.val, k.isLt⟩ : Fin C) := by
  funext c
  apply Fin.ext
  rw [Shape.Reduces.lift_val]
  unfold Shape.Reduces.liftVal
  match c with
  | ⟨0, _⟩ => simp
  | ⟨1, _⟩ => simp

/-- A vector of R numbers re-laid as an R-by-1 column and spread over C columns holds, at (p, c), its entry p. -/
theorem colOfVec_apply {α : Type} {R C : ℕ} (v : (⟨1, ![R]⟩ : Shape).Idx → α)
    (hsc : (⟨1, ![R]⟩ : Shape).ShapeCasts ⟨2, ![R, 1]⟩) (hbc : (⟨2, ![R, 1]⟩ : Shape).Broadcasts ⟨2, ![R, C]⟩)
    (p : Fin R) (c : Fin C) :
    broadcastTo ⟨2, ![R, C]⟩ (shapeCast ⟨2, ![R, 1]⟩ v hsc) hbc (ix2 p c) = v (ix1 p) := by
  rw [broadcastTo_a1_ab_apply]
  refine shapeCast_apply v hsc (ix2 p (0 : Fin 1)) (ix1 p) ?_
  rw [Shape.rowMajor_val_two, Shape.rowMajor_val_one]
  show p.val = p.val * 1 + 0
  omega

/-! ## The kernel's spelling -/

/-- The kernel's row maxima as a matrix: the lane maximum from minus infinity, met with a splat of minus infinity,
    re-laid as a column and spread over the columns. -/
abbrev kMaxSpread {R C : ℕ} (x : FVec Ideal ⟨2, ![R, C]⟩ .f32)
    (hred : (⟨2, ![R, C]⟩ : Shape).Reduces [(1 : Fin 2)] ⟨1, ![R]⟩) (hφ : FKind.Formats .f32)
    (haccM : (0xFF800000#32 : BitVec 32) = FKind.maximumf.neutral .f32 hφ)
    (hsc : (⟨1, ![R]⟩ : Shape).ShapeCasts ⟨2, ![R, 1]⟩) (hbc : (⟨2, ![R, 1]⟩ : Shape).Broadcasts ⟨2, ![R, C]⟩) :
    FVec Ideal ⟨2, ![R, C]⟩ .f32 :=
  broadcastTo ⟨2, ![R, C]⟩ (shapeCast ⟨2, ![R, 1]⟩
    (maximumf (broadcast ⟨1, ![R]⟩ (Scalar.ofBits (F := Ideal) .f32 0xFF800000#32))
      (multiReduction .maximumf [(1 : Fin 2)] ⟨1, ![R]⟩ x 0xFF800000#32 hred hφ haccM)) hsc) hbc

theorem kMaxSpread_apply {R C : ℕ} (x : FVec Ideal ⟨2, ![R, C]⟩ .f32)
    (hred : (⟨2, ![R, C]⟩ : Shape).Reduces [(1 : Fin 2)] ⟨1, ![R]⟩) (hφ : FKind.Formats .f32)
    (haccM : (0xFF800000#32 : BitVec 32) = FKind.maximumf.neutral .f32 hφ)
    (hsc : (⟨1, ![R]⟩ : Shape).ShapeCasts ⟨2, ![R, 1]⟩) (hbc : (⟨2, ![R, 1]⟩ : Shape).Broadcasts ⟨2, ![R, C]⟩)
    (p : Fin R) (k : Fin C) :
    kMaxSpread x hred hφ haccM hsc hbc (ix2 p k) = rowMax (fun k => x (ix2 p k)) := by
  show broadcastTo ⟨2, ![R, C]⟩ (shapeCast ⟨2, ![R, 1]⟩ _ hsc) hbc (ix2 p k) = _
  rw [colOfVec_apply]
  show max (Ideal.ofBits .f32 0xFF800000#32)
    (multiReduction .maximumf [(1 : Fin 2)] ⟨1, ![R]⟩ x 0xFF800000#32 hred hφ haccM (ix1 p)) = _
  rw [Ideal.multiReduction_maximumf_single]
  have e : (x ∘ hred.lift (ix1 p)) = fun k : Fin C => x (ix2 p k) :=
    funext fun k => congrArg x (lift_row hred p k)
  rw [e]
  rfl

/-- The kernel's softmax of a block's rows, read at (r, c). -/
theorem kernelSoftmax_apply {R C : ℕ} (x : FVec Ideal ⟨2, ![R, C]⟩ .f32)
    (hred : (⟨2, ![R, C]⟩ : Shape).Reduces [(1 : Fin 2)] ⟨1, ![R]⟩) (hφ : FKind.Formats .f32)
    (haccM : (0xFF800000#32 : BitVec 32) = FKind.maximumf.neutral .f32 hφ)
    (haccA : (0x00000000#32 : BitVec 32) = FKind.add.neutral .f32 hφ)
    (hsc : (⟨1, ![R]⟩ : Shape).ShapeCasts ⟨2, ![R, 1]⟩) (hbc : (⟨2, ![R, 1]⟩ : Shape).Broadcasts ⟨2, ![R, C]⟩)
    (r : Fin R) (c : Fin C) :
    divf (exp (subf x (kMaxSpread x hred hφ haccM hsc hbc)))
      (broadcastTo ⟨2, ![R, C]⟩ (shapeCast ⟨2, ![R, 1]⟩
        (multiReduction .add [(1 : Fin 2)] ⟨1, ![R]⟩ (exp (subf x (kMaxSpread x hred hφ haccM hsc hbc)))
          0x00000000#32 hred hφ haccA) hsc) hbc) (ix2 r c)
      = softmaxRow (fun k => x (ix2 r k)) c := by
  have hm := kMaxSpread_apply x hred hφ haccM hsc hbc
  show Ideal.div (Ideal.exp (x (ix2 r c) - kMaxSpread x hred hφ haccM hsc hbc (ix2 r c)))
    (broadcastTo ⟨2, ![R, C]⟩ (shapeCast ⟨2, ![R, 1]⟩ _ hsc) hbc (ix2 r c)) = _
  rw [hm r c, colOfVec_apply, Ideal.multiReduction_add_single]
  unfold softmaxRow
  refine congrArg (Ideal.div _) (Finset.sum_congr rfl fun k _ => ?_)
  rw [lift_row hred r k]
  show Ideal.exp (x (ix2 r ⟨k.val, k.isLt⟩) - kMaxSpread x hred hφ haccM hsc hbc (ix2 r ⟨k.val, k.isLt⟩)) = _
  rw [hm r ⟨k.val, k.isLt⟩]
  rfl

/-! ## The host's spelling -/

/-- The host's row maxima as a matrix: a reduce by maximum from minus infinity, met with a splat of minus infinity,
    broadcast to a column and then over the columns. -/
abbrev hMaxSpread {R C : ℕ} (x : FVec Ideal ⟨2, ![R, C]⟩ .f32)
    (h' : (⟨2, ![R, C]⟩ : Shape).ReducesTo [(1 : Fin 2)] ⟨1, ![R]⟩) (hS : 0 < (⟨0, ![]⟩ : Shape).numel)
    (hb0 : (⟨0, ![]⟩ : Shape).BroadcastsInDim ⟨1, ![R]⟩ ![])
    (hb1 : (⟨1, ![R]⟩ : Shape).BroadcastsInDim ⟨2, ![R, 1]⟩ ![0])
    (hb2 : (⟨2, ![R, 1]⟩ : Shape).BroadcastsInDim ⟨2, ![R, C]⟩ ![0, 1]) : FVec Ideal ⟨2, ![R, C]⟩ .f32 :=
  broadcastInDim ⟨2, ![R, C]⟩ ![0, 1] hb2 (broadcastInDim ⟨2, ![R, 1]⟩ ![0] hb1
    (maximumf (broadcastInDim ⟨1, ![R]⟩ ![] hb0 (constant (F := Ideal) ⟨0, ![]⟩ .f32 0xFF800000#32))
      (Host.reduce FloatOps.maximumf x (constant (F := Ideal) ⟨0, ![]⟩ .f32 0xFF800000#32) h' hS)))

theorem hMaxSpread_apply {R C : ℕ} (x : FVec Ideal ⟨2, ![R, C]⟩ .f32)
    (h' : (⟨2, ![R, C]⟩ : Shape).ReducesTo [(1 : Fin 2)] ⟨1, ![R]⟩)
    (hred : (⟨2, ![R, C]⟩ : Shape).Reduces [(1 : Fin 2)] ⟨1, ![R]⟩) (hS : 0 < (⟨0, ![]⟩ : Shape).numel)
    (hb0 : (⟨0, ![]⟩ : Shape).BroadcastsInDim ⟨1, ![R]⟩ ![])
    (hb1 : (⟨1, ![R]⟩ : Shape).BroadcastsInDim ⟨2, ![R, 1]⟩ ![0])
    (hb2 : (⟨2, ![R, 1]⟩ : Shape).BroadcastsInDim ⟨2, ![R, C]⟩ ![0, 1]) (p : Fin R) (k : Fin C) :
    hMaxSpread x h' hS hb0 hb1 hb2 (ix2 p k) = rowMax (fun k => x (ix2 p k)) := by
  show broadcastInDim ⟨2, ![R, C]⟩ ![0, 1] hb2 (broadcastInDim (s := ⟨1, ![R]⟩) ⟨2, ![R, 1]⟩ ![0] hb1 _) (ix2 p k) = _
  rw [colSpread_apply ![0] rfl hb1 ![0, 1] rfl rfl hb2]
  show max (broadcastInDim ⟨1, ![R]⟩ ![] hb0 (constant (F := Ideal) ⟨0, ![]⟩ .f32 0xFF800000#32) (ix1 p))
    (Host.reduce FloatOps.maximumf x (constant (F := Ideal) ⟨0, ![]⟩ .f32 0xFF800000#32) h' hS (ix1 p)) = _
  rw [splat_apply, Host.reduce_eq_fold_single FloatOps.maximumf x _ h' hred hS (ix1 p)]
  have e : (x ∘ hred.lift (ix1 p)) = fun k : Fin C => x (ix2 p k) :=
    funext fun k => congrArg x (lift_row hred p k)
  rw [e]
  rfl

/-- The host's softmax of a matrix's rows, read at (r, c). -/
theorem hostSoftmax_apply {R C : ℕ} (x : FVec Ideal ⟨2, ![R, C]⟩ .f32)
    (h' : (⟨2, ![R, C]⟩ : Shape).ReducesTo [(1 : Fin 2)] ⟨1, ![R]⟩)
    (hred : (⟨2, ![R, C]⟩ : Shape).Reduces [(1 : Fin 2)] ⟨1, ![R]⟩) (hS : 0 < (⟨0, ![]⟩ : Shape).numel)
    (hb0 : (⟨0, ![]⟩ : Shape).BroadcastsInDim ⟨1, ![R]⟩ ![])
    (hb1 : (⟨1, ![R]⟩ : Shape).BroadcastsInDim ⟨2, ![R, 1]⟩ ![0])
    (hb2 : (⟨2, ![R, 1]⟩ : Shape).BroadcastsInDim ⟨2, ![R, C]⟩ ![0, 1]) (r : Fin R) (c : Fin C) :
    Host.divf (Host.exp (subf x (hMaxSpread x h' hS hb0 hb1 hb2)))
      (broadcastInDim ⟨2, ![R, C]⟩ ![0, 1] hb2 (broadcastInDim ⟨2, ![R, 1]⟩ ![0] hb1
        (Host.reduceAdd (Host.exp (subf x (hMaxSpread x h' hS hb0 hb1 hb2)))
          (constant (F := Ideal) ⟨0, ![]⟩ .f32 0x00000000#32) h' hS))) (ix2 r c)
      = softmaxRow (fun k => x (ix2 r k)) c := by
  have hm := hMaxSpread_apply x h' hred hS hb0 hb1 hb2
  show Ideal.div (Ideal.exp (x (ix2 r c) - hMaxSpread x h' hS hb0 hb1 hb2 (ix2 r c)))
    (broadcastInDim ⟨2, ![R, C]⟩ ![0, 1] hb2 (broadcastInDim (s := ⟨1, ![R]⟩) ⟨2, ![R, 1]⟩ ![0] hb1 _) (ix2 r c)) = _
  rw [hm r c, colSpread_apply ![0] rfl hb1 ![0, 1] rfl rfl hb2]
  simp only [Host.reduceAdd, Ideal.hostReduceAdd_def]
  rw [Ideal.hostReduceAdd_single h' hred]
  show Ideal.div _ (Ideal.ofBits .f32 0x00000000#32 + _) = _
  rw [Ideal.ofBits_zero_f32, zero_add]
  unfold softmaxRow
  refine congrArg (Ideal.div _) (Finset.sum_congr rfl fun k _ => ?_)
  rw [lift_row hred r k]
  show Ideal.exp (x (ix2 r ⟨k.val, k.isLt⟩) - hMaxSpread x h' hS hb0 hb1 hb2 (ix2 r ⟨k.val, k.isLt⟩)) = _
  rw [hm r ⟨k.val, k.isLt⟩]
  rfl

end Cert.Lib

end
-- ==== Proof.Spec.lean ====
/-
  GLOBAL ("general") ATTENTION OVER 32 SEQUENCES, ENTRY BY ENTRY.

  The arguments: queries X [32, 512, 1024], memory C [32, 1024, 1024], an input projection W [1024, 1024] and an output
  projection Wo [1024, 2048]. For sequence b and query position t,
    query  h[e]   = sum_d X[b,t,d] W[e,d]
    score  a[s]   = sum_d h[d] C[b,s,d]
    weight p[s]   = softmax over s of a           (the maximum taken from minus infinity)
    context c[d]  = sum_s p[s] C[b,s,d]
    output o[d]   = tanh( sum_e c[e] Wo[d,e] + sum_e X[b,t,e] Wo[d,1024+e] ),
  the last being Wo applied to the concatenation [c, X[b,t,:]], its sum over 2048 columns taken half by half.
  The two results are o and p laid out with the query position first: [512, 32, 1024].
-/
import Idealize.ShloMosaic.PureOps.Ideal
import Idealize.ShloMosaic.Lib.ValueIdx
import proofs.«165455_j1580547969021_2_alg».proof.Proof.LibSoftmaxRows

noncomputable section

open scoped BigOperators

namespace Cert.Attn

open Idealize.ShloMosaic Idealize.ShloMosaic.ValueIdx Cert.Lib

/-- Column e of the output projection's first half. -/
abbrev lo (e : Fin 1024) : Fin 2048 := ⟨e.val, by have := e.isLt; omega⟩
/-- Column e of its second half. -/
abbrev hi (e : Fin 1024) : Fin 2048 := ⟨1024 + e.val, by have := e.isLt; omega⟩

/-- A sum over 2048 columns is the sum over the first 1024 plus the sum over the last 1024: in any commutative monoid,
    so in particular on the extended reals, where no term need be finite. -/
theorem sum_halves {α : Type*} [AddCommMonoid α] (g : Fin 2048 → α) :
    ∑ f : Fin 2048, g f = (∑ e : Fin 1024, g (lo e)) + ∑ e : Fin 1024, g (hi e) :=
  Fin.sum_univ_add (a := 1024) (b := 1024) (f := g)

variable (X : (⟨3, ![32, 512, 1024]⟩ : Shape).Idx → EReal) (C : (⟨3, ![32, 1024, 1024]⟩ : Shape).Idx → EReal)
  (W : (⟨2, ![1024, 1024]⟩ : Shape).Idx → EReal) (Wo : (⟨2, ![1024, 2048]⟩ : Shape).Idx → EReal)

/-- The projected query. -/
def query (b : Fin 32) (t : Fin 512) (e : Fin 1024) : EReal :=
  ∑ d : Fin 1024, X (ix3 b t d) * W (ix2 e d)

/-- Its score against memory position s. -/
def score (b : Fin 32) (t : Fin 512) (s : Fin 1024) : EReal :=
  ∑ d : Fin 1024, query X W b t d * C (ix3 b s d)

/-- The attention weight of memory position s. -/
def weight (b : Fin 32) (t : Fin 512) (s : Fin 1024) : EReal :=
  softmaxRow (fun k => score X C W b t k) s

/-- The weighted memory. -/
def context (b : Fin 32) (t : Fin 512) (d : Fin 1024) : EReal :=
  ∑ s : Fin 1024, weight X C W b t s * C (ix3 b s d)

/-- The attentional output. -/
def output (b : Fin 32) (t : Fin 512) (d : Fin 1024) : EReal :=
  Ideal.tanh ((∑ e : Fin 1024, context X C W b t e * Wo (ix2 d (lo e)))
    + ∑ e : Fin 1024, X (ix3 b t e) * Wo (ix2 d (hi e)))

/-- The first result, query position first. -/
def outAttn : (⟨3, ![512, 32, 1024]⟩ : Shape).Idx → EReal := fun i =>
  output X C W Wo ⟨(i 1).val, (i 1).isLt⟩ ⟨(i 0).val, (i 0).isLt⟩ ⟨(i 2).val, (i 2).isLt⟩

/-- The second result, query position first. -/
def outAlign : (⟨3, ![512, 32, 1024]⟩ : Shape).Idx → EReal := fun i =>
  weight X C W ⟨(i 1).val, (i 1).isLt⟩ ⟨(i 0).val, (i 0).isLt⟩ ⟨(i 2).val, (i 2).isLt⟩

end Cert.Attn

end
-- ==== Proof.LibTransDot.lean ====
/-
  A PRODUCT WITH THE WEIGHT'S SECOND AXIS CONTRACTED (x · Wᵀ), AS A SUM.

  einsum 'de,ne->nd' and 'de,nke->nkd' contract the activations' last axis with the weight's LAST axis: the result
  at (n, d), or (n, k, d), is the sum over e of the activation's (n, e), or (n, k, e), times the weight's (d, e).
-/
import Idealize.ShloMosaic.PureOps.Ideal.Laws
import Idealize.ShloMosaic.Lib.ValueIdx

noncomputable section

open scoped BigOperators

namespace Cert.Lib

open Idealize.ShloMosaic Idealize.ShloMosaic.ValueIdx

section Rank2

variable {M K N : Nat} (d : DotDims ⟨2, ![M, K]⟩ ⟨2, ![N, K]⟩ ⟨2, ![M, N]⟩)

theorem t2_lhs_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

theorem t2_rhs_row (hln : d.lhsNonContracting = [0]) (hrn : d.rhsNonContracting = [0]) (hlb : d.lhsBatch = [])
    (hrb : d.rhsBatch = []) (j : (⟨2, ![M, N]⟩ : Shape).Idx) (k : d.contr.Idx) :
    (d.rhsIdx j k (0 : Fin 2)).val = (j (1 : Fin 2)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

theorem t2_contr_rank (hl : d.lhsContracting = [1]) : d.contr.rank = 1 := by rw [d.rank_contr, hl]; rfl

theorem t2_contr_size (hl : d.lhsContracting = [1]) :
    d.contr.size ⟨0, by rw [t2_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ at (p, n): the sum over k of x (p, k) · W (n, k). -/
theorem sum_contr_t2 {α : Type*} [AddCommMonoid α] (hl : d.lhsContracting = [1]) (hr : d.rhsContracting = [1])
    (hln : d.lhsNonContracting = [0]) (hrn : d.rhsNonContracting = [0]) (hlb : d.lhsBatch = []) (hrb : d.rhsBatch = [])
    (f : (⟨2, ![M, K]⟩ : Shape).Idx → (⟨2, ![N, K]⟩ : Shape).Idx → α) (p : Fin M) (n : Fin N) :
    ∑ k : d.contr.Idx, f (d.lhsIdx (ix2 p n) k) (d.rhsIdx (ix2 p n) k) = ∑ k : Fin K, f (ix2 p k) (ix2 n k) := by
  have hrk := t2_contr_rank d hl
  have hs := t2_contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact t2_lhs_row d hln hlb _ _
    | ⟨1, _⟩ => exact (d.lhsIdx_val_of_single hl _ _).trans (contrEquiv1_symm_val d K hrk hs k)
  have e2 : d.rhsIdx (ix2 p n) ((contrEquiv1 d K hrk hs).symm k) = ix2 n k := by
    funext a; apply Fin.ext
    match a with
    | ⟨0, _⟩ => exact t2_rhs_row d hln hrn hlb hrb _ _
    | ⟨1, _⟩ => exact (d.rhsIdx_val_of_single hr _ _).trans (contrEquiv1_symm_val d K hrk hs k)
  rw [e1, e2]

theorem dotGeneral_t2_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (r : Fin M) (q : Fin N) :
    Host.dotGeneral d prec a b (ix2 r q) = ∑ p : Fin K, a (ix2 r p) * b (ix2 q p) :=
  (Ideal.dotGeneral_apply d prec .single a b (ix2 r q)).trans
    (sum_contr_t2 d hl hr hln hrn hlb hrb (fun i j => a i * b j) r q)

end Rank2

section Rank3

variable {A B K N : Nat} (d : DotDims ⟨3, ![A, B, K]⟩ ⟨2, ![N, K]⟩ ⟨3, ![A, B, N]⟩)

theorem t3_lhs_0 (hln : d.lhsNonContracting = [0, 1]) (hlb : d.lhsBatch = [])
    (j : (⟨3, ![A, B, N]⟩ : Shape).Idx) (k : d.contr.Idx) : (d.lhsIdx j k (0 : Fin 3)).val = (j (0 : Fin 3)).val := by
  have hb : (0 : Fin 3) ∉ d.lhsBatch := by rw [hlb]; exact List.not_mem_nil
  have hn : (0 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_lhs_1 (hln : d.lhsNonContracting = [0, 1]) (hlb : d.lhsBatch = [])
    (j : (⟨3, ![A, B, N]⟩ : Shape).Idx) (k : d.contr.Idx) : (d.lhsIdx j k (1 : Fin 3)).val = (j (1 : Fin 3)).val := by
  have hb : (1 : Fin 3) ∉ d.lhsBatch := by rw [hlb]; exact List.not_mem_nil
  have hn : (1 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_rhs_row (hln : d.lhsNonContracting = [0, 1]) (hrn : d.rhsNonContracting = [0]) (hlb : d.lhsBatch = [])
    (hrb : d.rhsBatch = []) (j : (⟨3, ![A, B, N]⟩ : Shape).Idx) (k : d.contr.Idx) :
    (d.rhsIdx j k (0 : Fin 2)).val = (j (2 : Fin 3)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln, hrn]; rfl)

theorem t3_contr_rank (hl : d.lhsContracting = [2]) : d.contr.rank = 1 := by rw [d.rank_contr, hl]; rfl

theorem t3_contr_size (hl : d.lhsContracting = [2]) :
    d.contr.size ⟨0, by rw [t3_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ over a slab at (a, b, n): the sum over k of x (a, b, k) · W (n, k). -/
theorem sum_contr_t3 {α : Type*} [AddCommMonoid α] (hl : d.lhsContracting = [2]) (hr : d.rhsContracting = [1])
    (hln : d.lhsNonContracting = [0, 1]) (hrn : d.rhsNonContracting = [0]) (hlb : d.lhsBatch = []) (hrb : d.rhsBatch = [])
    (f : (⟨3, ![A, B, K]⟩ : Shape).Idx → (⟨2, ![N, K]⟩ : Shape).Idx → α) (a : Fin A) (b : Fin B) (n : Fin N) :
    ∑ k : d.contr.Idx, f (d.lhsIdx (ix3 a b n) k) (d.rhsIdx (ix3 a b n) k) = ∑ k : Fin K, f (ix3 a b k) (ix2 n k) := by
  have hrk := t3_contr_rank d hl
  have hs := t3_contr_size d hl
  rw [← Equiv.sum_comp (contrEquiv1 d K hrk hs).symm]
  refine Finset.sum_congr rfl fun k _ => ?_
  have e1 : d.lhsIdx (ix3 a b n) ((contrEquiv1 d K hrk hs).symm k) = ix3 a b k := by
    funext c; apply Fin.ext
    match c with
    | ⟨0, _⟩ => exact t3_lhs_0 d hln hlb _ _
    | ⟨1, _⟩ => exact t3_lhs_1 d hln hlb _ _
    | ⟨2, _⟩ => exact (d.lhsIdx_val_of_single hl _ _).trans (contrEquiv1_symm_val d K hrk hs k)
  have e2 : d.rhsIdx (ix3 a b n) ((contrEquiv1 d K hrk hs).symm k) = ix2 n k := by
    funext c; apply Fin.ext
    match c with
    | ⟨0, _⟩ => exact t3_rhs_row d hln hrn hlb hrb _ _
    | ⟨1, _⟩ => exact (d.rhsIdx_val_of_single hr _ _).trans (contrEquiv1_symm_val d K hrk hs k)
  rw [e1, e2]

theorem dotGeneral_t3_at (hl : d.lhsContracting = [2]) (hr : d.rhsContracting = [1])
    (hln : d.lhsNonContracting = [0, 1]) (hrn : d.rhsNonContracting = [0]) (hlb : d.lhsBatch = []) (hrb : d.rhsBatch = [])
    {φ₁ φ₂ : FTy} (prec : Option ContractPrecision) (x : FVec Ideal ⟨3, ![A, B, K]⟩ φ₁) (w : FVec Ideal ⟨2, ![N, K]⟩ φ₂)
    (a : Fin A) (b : Fin B) (q : Fin N) :
    Host.dotGeneral d prec x w (ix3 a b q) = ∑ p : Fin K, x (ix3 a b p) * w (ix2 q p) :=
  (Ideal.dotGeneral_apply d prec .single x w (ix3 a b q)).trans
    (sum_contr_t3 d hl hr hln hrn hlb hrb (fun i j => x i * w j) a b q)

end Rank3

end Cert.Lib

end
-- ==== Proof.LibMatmulT.lean ====
/-
  A KERNEL'S MATRIX PRODUCT WITH THE SECOND OPERAND'S LAST AXIS CONTRACTED (x · Wᵀ), INTO ZERO, AS A SUM.

  A product of x [M, K] with W [N, K] that contracts the last axis of both, accumulated into a zero block, holds at
  (r, q) the sum over p < K of x (r, p) · W (q, p) — on the extended reals, for any record that describes such a product.
-/
import Idealize.ShloMosaic.PureOps.Ideal.Laws
import Idealize.ShloMosaic.Lib.ValueIdx
import proofs.«165455_j1580547969021_2_alg».proof.Proof.LibTransDot

noncomputable section

open scoped BigOperators

namespace Cert.Lib

open Idealize.ShloMosaic Idealize.ShloMosaic.ValueIdx

/-- x · Wᵀ into a zero accumulator, at (r, q): row r of x against row q of W. -/
theorem matmulT_zero_at {M K N : Nat} (d : DotDims ⟨2, ![M, K]⟩ ⟨2, ![N, K]⟩ ⟨2, ![M, N]⟩)
    (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (r : Fin M) (q : Fin N) :
    matmul d prec a b (constant (F := Ideal) ⟨2, ![M, N]⟩ .f32 0x00000000#32) (ix2 r q)
      = ∑ p : Fin K, a (ix2 r p) * b (ix2 q p) :=
  (Ideal.matmul_constant_zero_apply d prec a b (ix2 r q)).trans
    (sum_contr_t2 d hl hr hln hrn hlb hrb (fun i j => a i * b j) r q)

end Cert.Lib

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«165455_j1580547969021_2_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.KernelBody.lean ====
/-
  ONE BLOCK OF THE KERNEL, ENTRY BY ENTRY.

  At a grid point the body holds 256 query rows x of one sequence, that sequence's whole memory (1024 rows), the input
  projection w and the two halves wa, wb of the output projection. For one query row it computes
    h[d'] = sum_e' x[e'] w[d',e'],  a[k] = sum_d' h[d'] mem[k,d'],  p = softmax a,
    c[e] = sum_s p[s] mem[s,e],     o[d] = tanh( sum_e c[e] wa[d,e] + sum_e x[e] wb[d,e] ),
  and stores o in the first output block and p in the second. Changes of float format are the identity on the
  extended reals, so nothing else happens. These row formulas are exactly the specification's, read at the row.
-/
import proofs.«165455_j1580547969021_2_alg».proof.Proof.Gen.KernelIdeal.Skeleton
import proofs.«165455_j1580547969021_2_alg».proof.Proof.Spec
import proofs.«165455_j1580547969021_2_alg».proof.Proof.LibSoftmaxRows
import proofs.«165455_j1580547969021_2_alg».proof.Proof.LibMatmulT
import proofs.«165455_j1580547969021_2_alg».proof.Proof.LibRowReads
import Idealize.ShloMosaic.Lib.Pipeline.Value
import Idealize.ShloMosaic.Lib.ValueLayout
import Idealize.ShloMosaic.PureOps.Ideal.Laws

noncomputable section

open scoped BigOperators

namespace Cert.Attn

open Idealize.ShloMosaic Idealize.ShloMosaic.ValueIdx Cert.Lib

/-- The attention weights of one query row x against a memory mem, through the input projection w. -/
def rowWeight (x : Fin 1024 → EReal) (mem w : Fin 1024 → Fin 1024 → EReal) (s : Fin 1024) : EReal :=
  softmaxRow (fun k => ∑ d : Fin 1024, (∑ e : Fin 1024, x e * w d e) * mem k d) s

/-- The attentional output of one query row. -/
def rowOut (x : Fin 1024 → EReal) (mem w wa wb : Fin 1024 → Fin 1024 → EReal) (d : Fin 1024) : EReal :=
  Ideal.tanh ((∑ e : Fin 1024, (∑ s : Fin 1024, rowWeight x mem w s * mem s e) * wa d e) + ∑ e : Fin 1024, x e * wb d e)

variable (X : (⟨3, ![32, 512, 1024]⟩ : Shape).Idx → EReal) (C : (⟨3, ![32, 1024, 1024]⟩ : Shape).Idx → EReal)
  (W : (⟨2, ![1024, 1024]⟩ : Shape).Idx → EReal) (Wo : (⟨2, ![1024, 2048]⟩ : Shape).Idx → EReal)

/-- The specification's weight is the row formula at row (b, t). -/
theorem weight_eq_row (b : Fin 32) (t : Fin 512) (s : Fin 1024) :
    weight X C W b t s
      = rowWeight (fun e => X (ix3 b t e)) (fun k d => C (ix3 b k d)) (fun d e => W (ix2 d e)) s := rfl

/-- The specification's output is the row formula at row (b, t), the output projection read half by half. -/
theorem output_eq_row (b : Fin 32) (t : Fin 512) (d : Fin 1024) :
    output X C W Wo b t d
      = rowOut (fun e => X (ix3 b t e)) (fun k d => C (ix3 b k d)) (fun d e => W (ix2 d e))
          (fun d e => Wo (ix2 d (lo e))) (fun d e => Wo (ix2 d (hi e))) d := rfl

end Cert.Attn

namespace Cert.KernelIdeal.Body

open Cert.KernelIdeal Cert.KernelIdeal.Gen Idealize.ShloMosaic Idealize.ShloMosaic.ValueIdx Cert.Lib Cert.Attn

local notation "dT" => dot_S256x1024_S1024x1024_S256x1024_1_1_0_0_n_n
local notation "dP" => dot_S256x1024_S1024x1024_S256x1024_1_0_0_1_n_n

/-- A weight block re-laid in its own shape: the same block. -/
def same (v : Vec Ideal S1024x1024 .bf16) : FVec Ideal S1024x1024 .bf16 :=
  shapeCast S1024x1024 v shapeCasts_S1024x1024_S1024x1024

theorem same_at (v : Vec Ideal S1024x1024 .bf16) (i : S1024x1024.Idx) : same v i = v i :=
  congrFun (shapeCast_self v _) i

/-- The zero block every product of the body accumulates into. -/
def zero : FVec Ideal S256x1024 .f32 := constant S256x1024 .f32 0x00000000#32

/-- The projected queries of the block. -/
def queries (v0 : Vec Ideal S1x256x1024 .f32) (v4 : Vec Ideal S1024x1024 .bf16) : FVec Ideal S256x1024 .f32 :=
  matmul dT none (k0_pay2 (F := Ideal) v0) (same v4) zero

/-- The scores of the block: the projected queries against the memory rows. -/
def scores (v0 : Vec Ideal S1x256x1024 .f32) (v2 : Vec Ideal S1x1024x1024 .f32) (v4 : Vec Ideal S1024x1024 .bf16) :
    FVec Ideal S256x1024 .f32 :=
  matmul dT (some .fp32) (queries v0 v4) (k0_pay1 (F := Ideal) v2) zero

/-- Row p of the query block, read without its unit leading axis and in the narrower format: the same numbers. -/
theorem pay2_at (v0 : Vec Ideal S1x256x1024 .f32) (p : Fin 256) (e : Fin 1024) :
    k0_pay2 (F := Ideal) v0 (ix2 p e) = v0 (ix3 (0 : Fin 1) p e) :=
  shapeCast_1ab_ab_apply v0 _ p e

/-- The memory block without its unit leading axis. -/
theorem pay1_at (v2 : Vec Ideal S1x1024x1024 .f32) (k : Fin 1024) (d : Fin 1024) :
    k0_pay1 (F := Ideal) v2 (ix2 k d) = v2 (ix3 (0 : Fin 1) k d) :=
  shapeCast_1ab_ab_apply v2 _ k d

theorem queries_at (v0 : Vec Ideal S1x256x1024 .f32) (v4 : Vec Ideal S1024x1024 .bf16) (p : Fin 256) (d : Fin 1024) :
    queries v0 v4 (ix2 p d) = ∑ e : Fin 1024, v0 (ix3 (0 : Fin 1) p e) * v4 (ix2 d e) := by
  refine (matmulT_zero_at dT rfl rfl rfl rfl rfl rfl none (k0_pay2 (F := Ideal) v0) (same v4) p d).trans
    (Finset.sum_congr rfl fun e _ => ?_)
  exact congrArg₂ (· * ·) (pay2_at v0 p e) (same_at v4 _)

/-- The score of query row p against memory row k. -/
theorem scores_at (v0 : Vec Ideal S1x256x1024 .f32) (v2 : Vec Ideal S1x1024x1024 .f32) (v4 : Vec Ideal S1024x1024 .bf16)
    (p : Fin 256) (k : Fin 1024) :
    scores v0 v2 v4 (ix2 p k)
      = ∑ d : Fin 1024, (∑ e : Fin 1024, v0 (ix3 (0 : Fin 1) p e) * v4 (ix2 d e)) * v2 (ix3 (0 : Fin 1) k d) := by
  refine (matmulT_zero_at dT rfl rfl rfl rfl rfl rfl (some .fp32) (queries v0 v4) (k0_pay1 (F := Ideal) v2) p k).trans
    (Finset.sum_congr rfl fun d _ => ?_)
  exact congrArg₂ (· * ·) (queries_at v0 v4 p d) (pay1_at v2 k d)

/-- The second store's value is the softmax, in the kernel's spelling, of the scores. -/
theorem pay3_eq (v0 : Vec Ideal S1x256x1024 .f32) (v2 : Vec Ideal S1x1024x1024 .f32) (v4 : Vec Ideal S1024x1024 .bf16) :
    k0_pay3 (F := Ideal) v0 v2 v4
      = divf (exp (subf (scores v0 v2 v4)
            (kMaxSpread (scores v0 v2 v4) reduces_S256x1024_S256 (.inl rfl) rfl shapeCasts_S256_S256x1 broadcasts_S256x1_S256x1024)))
          (broadcastTo S256x1024 (shapeCast S256x1
            (multiReduction .add [1] S256 (exp (subf (scores v0 v2 v4)
              (kMaxSpread (scores v0 v2 v4) reduces_S256x1024_S256 (.inl rfl) rfl shapeCasts_S256_S256x1 broadcasts_S256x1_S256x1024)))
              0x00000000#32 reduces_S256x1024_S256 (.inl rfl) rfl) shapeCasts_S256_S256x1) broadcasts_S256x1_S256x1024) := rfl

/-- THE SECOND STORE: the softmax of the block's scores, row by row. -/
theorem pay3_at (v0 : Vec Ideal S1x256x1024 .f32) (v2 : Vec Ideal S1x1024x1024 .f32) (v4 : Vec Ideal S1024x1024 .bf16)
    (r : Fin 256) (s : Fin 1024) :
    k0_pay3 (F := Ideal) v0 v2 v4 (ix2 r s)
      = rowWeight (fun e => v0 (ix3 (0 : Fin 1) r e)) (fun k d => v2 (ix3 (0 : Fin 1) k d)) (fun d e => v4 (ix2 d e)) s := by
  refine (congrFun (pay3_eq v0 v2 v4) (ix2 r s)).trans ?_
  refine (kernelSoftmax_apply (scores v0 v2 v4) reduces_S256x1024_S256 (.inl rfl) rfl rfl shapeCasts_S256_S256x1
    broadcasts_S256x1_S256x1024 r s).trans ?_
  unfold rowWeight
  exact congrArg (softmaxRow · s) (funext fun k => scores_at v0 v2 v4 r k)

/-- The weighted memory of the block. -/
def mixed (v0 : Vec Ideal S1x256x1024 .f32) (v2 : Vec Ideal S1x1024x1024 .f32) (v4 : Vec Ideal S1024x1024 .bf16) :
    FVec Ideal S256x1024 .f32 :=
  matmul dP none (truncf .bf16 (k0_pay3 (F := Ideal) v0 v2 v4) bitsLt_bf16_f32)
    (truncf .bf16 (k0_pay1 (F := Ideal) v2) bitsLt_bf16_f32) zero

theorem mixed_at (v0 : Vec Ideal S1x256x1024 .f32) (v2 : Vec Ideal S1x1024x1024 .f32) (v4 : Vec Ideal S1024x1024 .bf16)
    (r : Fin 256) (e : Fin 1024) :
    mixed v0 v2 v4 (ix2 r e)
      = ∑ s : Fin 1024, rowWeight (fun e => v0 (ix3 (0 : Fin 1) r e)) (fun k d => v2 (ix3 (0 : Fin 1) k d))
          (fun d e => v4 (ix2 d e)) s * v2 (ix3 (0 : Fin 1) s e) := by
  refine (matmul_zero_at dP rfl rfl rfl rfl rfl rfl none (truncf .bf16 (k0_pay3 (F := Ideal) v0 v2 v4) bitsLt_bf16_f32)
    (truncf .bf16 (k0_pay1 (F := Ideal) v2) bitsLt_bf16_f32) r e).trans (Finset.sum_congr rfl fun s _ => ?_)
  exact congrArg₂ (· * ·) (pay3_at v0 v2 v4 r s) (pay1_at v2 s e)

/-- The first store's value: tanh of the two products' sum. -/
theorem pay4_eq (v0 : Vec Ideal S1x256x1024 .f32) (v2 : Vec Ideal S1x1024x1024 .f32) (v4 : Vec Ideal S1024x1024 .bf16)
    (v6 : Vec Ideal S1024x1024 .bf16) (v8 : Vec Ideal S1024x1024 .bf16) (j : S256x1024.Idx) :
    k0_pay4 (F := Ideal) v0 v2 v4 v6 v8 j
      = Ideal.tanh (matmul dT none (truncf .bf16 (mixed v0 v2 v4) bitsLt_bf16_f32) (same v6) zero j
          + matmul dT none (k0_pay2 (F := Ideal) v0) (same v8) zero j) := rfl

/-- THE FIRST STORE: tanh of the weighted memory through the first half of the output projection plus the query row
    through the second half. -/
theorem pay4_at (v0 : Vec Ideal S1x256x1024 .f32) (v2 : Vec Ideal S1x1024x1024 .f32) (v4 : Vec Ideal S1024x1024 .bf16)
    (v6 : Vec Ideal S1024x1024 .bf16) (v8 : Vec Ideal S1024x1024 .bf16) (r : Fin 256) (d : Fin 1024) :
    k0_pay4 (F := Ideal) v0 v2 v4 v6 v8 (ix2 r d)
      = rowOut (fun e => v0 (ix3 (0 : Fin 1) r e)) (fun k d => v2 (ix3 (0 : Fin 1) k d)) (fun d e => v4 (ix2 d e))
          (fun d e => v6 (ix2 d e)) (fun d e => v8 (ix2 d e)) d := by
  refine (pay4_eq v0 v2 v4 v6 v8 (ix2 r d)).trans ?_
  unfold rowOut
  refine congrArg Ideal.tanh (congrArg₂ (· + ·) ?_ ?_)
  · refine (matmulT_zero_at dT rfl rfl rfl rfl rfl rfl none (truncf .bf16 (mixed v0 v2 v4) bitsLt_bf16_f32) (same v6) r d).trans
      (Finset.sum_congr rfl fun e _ => ?_)
    exact congrArg₂ (· * ·) (mixed_at v0 v2 v4 r e) (same_at v6 _)
  · refine (matmulT_zero_at dT rfl rfl rfl rfl rfl rfl none (k0_pay2 (F := Ideal) v0) (same v8) r d).trans
      (Finset.sum_congr rfl fun e _ => ?_)
    exact congrArg₂ (· * ·) (pay2_at v0 r e) (same_at v8 _)

/-! ## A block whose operands are pieces of the argument arrays -/

section Block

variable (X : (⟨3, ![32, 512, 1024]⟩ : Shape).Idx → EReal) (C : (⟨3, ![32, 1024, 1024]⟩ : Shape).Idx → EReal)
  (W : (⟨2, ![1024, 1024]⟩ : Shape).Idx → EReal) (Wo : (⟨2, ![1024, 2048]⟩ : Shape).Idx → EReal)

/-- Equal coordinates give equal outputs. -/
theorem output_congr {b b' : Fin 32} {t t' : Fin 512} {d d' : Fin 1024} (hb : b.val = b'.val) (ht : t.val = t'.val)
    (hd : d.val = d'.val) : output X C W Wo b t d = output X C W Wo b' t' d' := by
  rw [Fin.ext hb, Fin.ext ht, Fin.ext hd]

/-- Equal coordinates give equal weights. -/
theorem weight_congr {b b' : Fin 32} {t t' : Fin 512} {s s' : Fin 1024} (hb : b.val = b'.val) (ht : t.val = t'.val)
    (hs : s.val = s'.val) : weight X C W b t s = weight X C W b' t' s' := by
  rw [Fin.ext hb, Fin.ext ht, Fin.ext hs]

variable (x0 : Vec Ideal S1x256x1024 .f32) (x1 : Vec Ideal S1x1024x1024 .f32) (x2 x3 x4 : Vec Ideal S1024x1024 .bf16)
  (b : Fin 32) (q : Fin 2)
  (h0 : ∀ (r : Fin 256) (e : Fin 1024),
    x0 (ix3 (0 : Fin 1) r e) = X (ix3 b (⟨q.val * 256 + r.val, by have := q.isLt; have := r.isLt; omega⟩ : Fin 512) e))
  (h1 : ∀ s d : Fin 1024, x1 (ix3 (0 : Fin 1) s d) = C (ix3 b s d))
  (h2 : ∀ d e : Fin 1024, x2 (ix2 d e) = W (ix2 d e))

include h0 h1 h2 in
/-- When the block's query rows are rows q·256 … q·256+255 of sequence b, its memory is sequence b's and its
    projection is W, the second store's entry (r, s) is the weight of memory position s for query (b, q·256 + r). -/
theorem block_align (j : S256x1024.Idx) :
    k0_pay3 (F := Ideal) x0 x1 x2 j
      = weight X C W b (⟨q.val * 256 + (j 0).val, by have := q.isLt; have := idx2_lt0 j; omega⟩ : Fin 512)
          (⟨(j 1).val, idx2_lt1 j⟩ : Fin 1024) := by
  obtain ⟨r, s, rfl⟩ : ∃ (r : Fin 256) (s : Fin 1024), j = ix2 r s := ⟨j 0, j 1, eq_ix2 j⟩
  rw [pay3_at, weight_eq_row]
  simp only [h0, h1, h2]

variable (h3 : ∀ d e : Fin 1024, x3 (ix2 d e) = Wo (ix2 d (lo e)))
  (h4 : ∀ d e : Fin 1024, x4 (ix2 d e) = Wo (ix2 d (hi e)))

include h0 h1 h2 h3 h4 in
/-- With, moreover, the two halves of the output projection as the last two operands, the first store's entry (r, d)
    is the attentional output of query (b, q·256 + r) at d. -/
theorem block_attn (j : S256x1024.Idx) :
    k0_pay4 (F := Ideal) x0 x1 x2 x3 x4 j
      = output X C W Wo b (⟨q.val * 256 + (j 0).val, by have := q.isLt; have := idx2_lt0 j; omega⟩ : Fin 512)
          (⟨(j 1).val, idx2_lt1 j⟩ : Fin 1024) := by
  obtain ⟨r, d, rfl⟩ : ∃ (r : Fin 256) (d : Fin 1024), j = ix2 r d := ⟨j 0, j 1, eq_ix2 j⟩
  rw [pay4_at, output_eq_row]
  simp only [h0, h1, h2, h3, h4]

end Block

end Cert.KernelIdeal.Body

end
-- ==== Proof.KernelEntry.lean ====
/-
  WHAT THE REGION FINDS IN ITS WEIGHT OPERANDS.

  Before the region the host narrows the input projection W [1024, 1024] and cuts the output projection Wo [1024, 2048]
  into its first and last 1024 columns, narrowing each. On the extended reals a change of float format is the identity,
  so the three operands hold W, Wo's first half and Wo's last half, entry by entry.
-/
import proofs.«165455_j1580547969021_2_alg».proof.Proof.Gen.KernelIdeal.Frame
import proofs.«165455_j1580547969021_2_alg».proof.Proof.Spec
import Idealize.ShloMosaic.Lib.StableHlo.Run
import Idealize.ShloMosaic.Lib.Pipeline.Value
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.Attn

variable (m : (ℓ : Loc nD τ sig) → Buf (Elt Ideal) ℓ)

/-- The narrowed input projection is the input projection. -/
theorem V_win (c : Dev nD) :
    (V m c main_v0 : S1024x1024.Idx → EReal)
      = truncf (F := Ideal) .bf16 (m ((c : Thread nD τ).loc main_arg2) : FVec Ideal S1024x1024 .f32) bitsLt_bf16_f32 := by
  show StableHlo.after hostOps0 (fun b => m (c, b)) (Proc.devRef .tc main_v0) = _
  after_results

/-- The first operand half: the first 1024 columns, narrowed. -/
theorem V_woutA (c : Dev nD) :
    (V m c main_v2 : S1024x1024.Idx → EReal)
      = truncf (F := Ideal) .bf16 (extractStridedSlice S1024x1024 ![0, 0]
          (m ((c : Thread nD τ).loc main_arg3) : FVec Ideal S1024x2048 .f32) slices_S1024x2048_S1024x1024_0_0) bitsLt_bf16_f32 := by
  show StableHlo.after hostOps0 (fun b => m (c, b)) (Proc.devRef .tc main_v2) = _
  after_results

/-- The second operand half: the last 1024 columns, narrowed. -/
theorem V_woutB (c : Dev nD) :
    (V m c main_v4 : S1024x1024.Idx → EReal)
      = truncf (F := Ideal) .bf16 (extractStridedSlice S1024x1024 ![0, 1024]
          (m ((c : Thread nD τ).loc main_arg3) : FVec Ideal S1024x2048 .f32) slices_S1024x2048_S1024x1024_0_1024) bitsLt_bf16_f32 := by
  show StableHlo.after hostOps0 (fun b => m (c, b)) (Proc.devRef .tc main_v4) = _
  after_results

theorem V_win_at (c : Dev nD) (d e : Fin 1024) :
    (V m c main_v0 : S1024x1024.Idx → EReal) (ix2 d e)
      = (m ((c : Thread nD τ).loc main_arg2) : S1024x1024.Idx → EReal) (ix2 d e) := by
  rw [V_win]; rfl

theorem V_woutA_at (c : Dev nD) (d e : Fin 1024) :
    (V m c main_v2 : S1024x1024.Idx → EReal) (ix2 d e)
      = (m ((c : Thread nD τ).loc main_arg3) : S1024x2048.Idx → EReal) (ix2 d (lo e)) := by
  rw [V_woutA]
  exact slice2_axis1_apply 0 _ slices_S1024x2048_S1024x1024_0_0 d e (lo e) (Nat.zero_add _).symm

theorem V_woutB_at (c : Dev nD) (d e : Fin 1024) :
    (V m c main_v4 : S1024x1024.Idx → EReal) (ix2 d e)
      = (m ((c : Thread nD τ).loc main_arg3) : S1024x2048.Idx → EReal) (ix2 d (hi e)) := by
  rw [V_woutB]
  exact slice2_axis1_apply 1024 _ slices_S1024x2048_S1024x1024_0_1024 d e (hi e) rfl

end Cert.KernelIdeal.Entry

end
-- ==== Proof.Flat.lean ====
/-
  THE KERNEL'S TWO OUTPUT ARRAYS BEFORE THEY ARE RE-LAID.

  The kernel writes each result as a matrix [512, 32768]: row t is query position t, and column b·1024 + d is entry d of
  sequence b — the sequences side by side along the columns.
-/
import proofs.«165455_j1580547969021_2_alg».proof.Proof.Spec

noncomputable section

namespace Cert.Attn

open Idealize.ShloMosaic Idealize.ShloMosaic.ValueIdx

variable (X : (⟨3, ![32, 512, 1024]⟩ : Shape).Idx → EReal) (C : (⟨3, ![32, 1024, 1024]⟩ : Shape).Idx → EReal)
  (W : (⟨2, ![1024, 1024]⟩ : Shape).Idx → EReal) (Wo : (⟨2, ![1024, 2048]⟩ : Shape).Idx → EReal)

/-- The attentional outputs, sequences side by side. -/
def flatAttn : (⟨2, ![512, 32768]⟩ : Shape).Idx → EReal := fun i =>
  output X C W Wo (⟨(i 1).val / 1024, by have := idx2_lt1 i; omega⟩ : Fin 32) (⟨(i 0).val, idx2_lt0 i⟩ : Fin 512)
    (⟨(i 1).val % 1024, Nat.mod_lt _ (by decide)⟩ : Fin 1024)

/-- The attention weights, sequences side by side. -/
def flatAlign : (⟨2, ![512, 32768]⟩ : Shape).Idx → EReal := fun i =>
  weight X C W (⟨(i 1).val / 1024, by have := idx2_lt1 i; omega⟩ : Fin 32) (⟨(i 0).val, idx2_lt0 i⟩ : Fin 512)
    (⟨(i 1).val % 1024, Nat.mod_lt _ (by decide)⟩ : Fin 1024)

end Cert.Attn

end
-- ==== Proof.KernelBlocks.lean ====
/-
  FROM THE KERNEL'S BLOCKS TO ITS TWO OUTPUT ARRAYS.

  The grid has 32 x 2 points (b, q): sequence b, query rows q·256 … q·256 + 255. At that point the body reads rows
  q·256 … of sequence b's queries, sequence b's whole memory and the three weight operands whole, and writes block
  (q, b) of each output matrix [512, 32768]: rows q·256 …, columns b·1024 …. What it writes there is the specification's
  output, and weight, of query (b, q·256 + r) at column d; the 64 blocks tile the matrix; so after the region the
  matrices are the flat arrays of the specification.
-/
import proofs.«165455_j1580547969021_2_alg».proof.Proof.Gen.KernelIdeal.Frame
import proofs.«165455_j1580547969021_2_alg».proof.Proof.KernelBody
import proofs.«165455_j1580547969021_2_alg».proof.Proof.KernelEntry
import proofs.«165455_j1580547969021_2_alg».proof.Proof.Flat
import Idealize.ShloMosaic.Lib.Pipeline.Value

set_option maxRecDepth 16384

noncomputable section

namespace Cert.KernelIdeal.Blocks

open Cert.KernelIdeal Cert.KernelIdeal.Gen Cert.KernelIdeal.Body Cert.KernelIdeal.Entry
open Idealize.ShloMosaic Idealize.ShloMosaic.TcCoe Idealize.ShloMosaic.ValueIdx
open Idealize.SL Idealize.SL.Sem
open Idealize.ShloMosaic.Pipeline (Dat Cfg Window)
open Cert.Attn

variable (m : (ℓ : Loc nD τ sig) → Buf (Elt Ideal) ℓ)

/-- The four argument arrays as launched, on core c. -/
abbrev argX (c : Dev nD) : S32x512x1024.Idx → EReal := m ((c : Thread nD τ).loc main_arg0)
abbrev argC (c : Dev nD) : S32x1024x1024.Idx → EReal := m ((c : Thread nD τ).loc main_arg1)
abbrev argW (c : Dev nD) : S1024x1024.Idx → EReal := m ((c : Thread nD τ).loc main_arg2)
abbrev argWo (c : Dev nD) : S1024x2048.Idx → EReal := m ((c : Thread nD τ).loc main_arg3)

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices at a point, decided over the 64 points: the query block is (b, q, 0), the memory block (b, 0, 0),
    the weights whole, both outputs' blocks (q, b). -/
theorem idx_facts : ∀ t : Fin cfg0.N,
    win0_0.index t (0 : Fin 3) = win0_5.index t (1 : Fin 2) ∧ win0_0.index t (1 : Fin 3) = win0_5.index t (0 : Fin 2)
    ∧ win0_0.index t (2 : Fin 3) = 0
    ∧ win0_1.index t (0 : Fin 3) = win0_5.index t (1 : Fin 2) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = win0_5.index t (0 : Fin 2) ∧ win0_6.index t (1 : Fin 2) = win0_5.index t (1 : Fin 2)
    ∧ win0_5.index t (0 : Fin 2) < 2 ∧ win0_5.index t (1 : Fin 2) < 32 :=
  (by decide +kernel : ∀ t : Fin grid0.N, _)

/-- Every block (q, b) of an output matrix is some point's. -/
theorem idx_onto5 : ∀ (q0 : Fin 2) (q1 : Fin 32), ∃ t : Fin cfg0.N, win0_5.index t = ![q0.val, q1.val] :=
  (by decide +kernel : ∀ (q0 : Fin 2) (q1 : Fin 32), ∃ t : Fin grid0.N, win0_5.index t = ![q0.val, q1.val])
theorem idx_onto6 : ∀ (q0 : Fin 2) (q1 : Fin 32), ∃ t : Fin cfg0.N, win0_6.index t = ![q0.val, q1.val] :=
  (by decide +kernel : ∀ (q0 : Fin 2) (q1 : Fin 32), ∃ t : Fin grid0.N, win0_6.index t = ![q0.val, q1.val])

/-! ## The input blocks at a point -/

/-- Row r of the query block is row q·256 + r of sequence b's queries. -/
theorem blk0_at (c : Dev nD) (t : Fin cfg0.N) (b : Fin 32) (q : Fin 2)
    (e0 : win0_0.index t (0 : Fin 3) = b.val) (e1 : win0_0.index t (1 : Fin 3) = q.val) (e2 : win0_0.index t (2 : Fin 3) = 0)
    (r : Fin 256) (e : Fin 1024) :
    iblk m c 0 t (ix3 (0 : Fin 1) r e)
      = argX m c (ix3 b (⟨q.val * 256 + r.val, by have := q.isLt; have := r.isLt; omega⟩ : Fin 512) e) := by
  refine Eq.trans ?_ (congrFun (V_main_arg0 m c) _)
  show V m c main_arg0 (((cfg0.win 0).blk t).view.emb (ix3 (0 : Fin 1) r e)) = V m c main_arg0 _
  refine congrArg _ (funext fun a => Fin.ext ?_)
  match a with
  | ⟨0, _⟩ => show win0_0.index t (0 : Fin 3) * 1 + 1 * 0 = b.val; omega
  | ⟨1, _⟩ => show win0_0.index t (1 : Fin 3) * 256 + 1 * r.val = q.val * 256 + r.val; omega
  | ⟨2, _⟩ => show win0_0.index t (2 : Fin 3) * 1024 + 1 * e.val = e.val; omega

/-- The memory block is sequence b's memory. -/
theorem blk1_at (c : Dev nD) (t : Fin cfg0.N) (b : Fin 32)
    (e0 : win0_1.index t (0 : Fin 3) = b.val) (e1 : win0_1.index t (1 : Fin 3) = 0) (e2 : win0_1.index t (2 : Fin 3) = 0)
    (s d : Fin 1024) :
    iblk m c 1 t (ix3 (0 : Fin 1) s d) = argC m c (ix3 b s d) := by
  refine Eq.trans ?_ (congrFun (V_main_arg1 m c) _)
  show V m c main_arg1 (((cfg0.win 1).blk t).view.emb (ix3 (0 : Fin 1) s d)) = V m c main_arg1 _
  refine congrArg _ (funext fun a => Fin.ext ?_)
  match a with
  | ⟨0, _⟩ => show win0_1.index t (0 : Fin 3) * 1 + 1 * 0 = b.val; omega
  | ⟨1, _⟩ => show win0_1.index t (1 : Fin 3) * 1024 + 1 * s.val = s.val; omega
  | ⟨2, _⟩ => show win0_1.index t (2 : Fin 3) * 1024 + 1 * d.val = d.val; omega

/-- The projection operand is the input projection. -/
theorem blk2_at (c : Dev nD) (t : Fin cfg0.N)
    (e0 : win0_2.index t (0 : Fin 2) = 0) (e1 : win0_2.index t (1 : Fin 2) = 0) (d e : Fin 1024) :
    iblk m c 2 t (ix2 d e) = argW m c (ix2 d e) := by
  refine Eq.trans ?_ (V_win_at m c d e)
  show V m c main_v0 (((cfg0.win 2).blk t).view.emb (ix2 d e)) = V m c main_v0 _
  refine congrArg _ (funext fun a => Fin.ext ?_)
  match a with
  | ⟨0, _⟩ => show win0_2.index t (0 : Fin 2) * 1024 + 1 * d.val = d.val; omega
  | ⟨1, _⟩ => show win0_2.index t (1 : Fin 2) * 1024 + 1 * e.val = e.val; omega

/-- The fourth operand is the first half of the output projection. -/
theorem blk3_at (c : Dev nD) (t : Fin cfg0.N)
    (e0 : win0_3.index t (0 : Fin 2) = 0) (e1 : win0_3.index t (1 : Fin 2) = 0) (d e : Fin 1024) :
    iblk m c 3 t (ix2 d e) = argWo m c (ix2 d (lo e)) := by
  refine Eq.trans ?_ (V_woutA_at m c d e)
  show V m c main_v2 (((cfg0.win 3).blk t).view.emb (ix2 d e)) = V m c main_v2 _
  refine congrArg _ (funext fun a => Fin.ext ?_)
  match a with
  | ⟨0, _⟩ => show win0_3.index t (0 : Fin 2) * 1024 + 1 * d.val = d.val; omega
  | ⟨1, _⟩ => show win0_3.index t (1 : Fin 2) * 1024 + 1 * e.val = e.val; omega

/-- The fifth operand is its second half. -/
theorem blk4_at (c : Dev nD) (t : Fin cfg0.N)
    (e0 : win0_4.index t (0 : Fin 2) = 0) (e1 : win0_4.index t (1 : Fin 2) = 0) (d e : Fin 1024) :
    iblk m c 4 t (ix2 d e) = argWo m c (ix2 d (hi e)) := by
  refine Eq.trans ?_ (V_woutB_at m c d e)
  show V m c main_v4 (((cfg0.win 4).blk t).view.emb (ix2 d e)) = V m c main_v4 _
  refine congrArg _ (funext fun a => Fin.ext ?_)
  match a with
  | ⟨0, _⟩ => show win0_4.index t (0 : Fin 2) * 1024 + 1 * d.val = d.val; omega
  | ⟨1, _⟩ => show win0_4.index t (1 : Fin 2) * 1024 + 1 * e.val = e.val; omega

/-! ## What a point writes back -/

/-- WHAT POINT t WRITES BACK to the first output is block t of the flat attentional outputs. -/
theorem flushed5_eq (c : Dev nD) (t : Fin cfg0.N) :
    (dats m 0 c).flushed 5 t
      = ((cfg0.win 5).blk t).view.read (Elt Ideal) (flatAttn (argX m c) (argC m c) (argW m c) (argWo m c)) := by
  show (cfg0.win 5).cut (grid0.coords t) ((dats m 0 c).after 5 t) = _
  rw [after0_5]
  unfold out0_5
  rw [View.canon_unit_zero hz2]
  simp only [View.ld_unit_zero (S := S1x256x1024) hz3, View.ld_unit_zero (S := S1x1024x1024) hz3,
    View.ld_unit_zero (S := S1024x1024) hz2]
  obtain ⟨a0, a1, a2, b0, b1, b2, c0, c1, d0, d1, f0, f1, g0, g1, hq, hb⟩ := idx_facts t
  funext j
  have hj0 : (j 0).val < 256 := (j 0).isLt
  have hj1 : (j 1).val < 1024 := (j 1).isLt
  refine (block_attn (argX m c) (argC m c) (argW m c) (argWo m c) (iblk m c 0 t) (iblk m c 1 t) (iblk m c 2 t)
    (iblk m c 3 t) (iblk m c 4 t) ⟨win0_5.index t (1 : Fin 2), hb⟩ ⟨win0_5.index t (0 : Fin 2), hq⟩
    (blk0_at m c t _ _ a0 a1 a2) (blk1_at m c t _ b0 b1 b2) (blk2_at m c t c0 c1) (blk3_at m c t d0 d1)
    (blk4_at m c t f0 f1) j).trans ?_
  refine output_congr _ _ _ _ ?_ ?_ ?_
  · show win0_5.index t (1 : Fin 2) = (win0_5.index t (1 : Fin 2) * 1024 + 1 * (j 1).val) / 1024; omega
  · show win0_5.index t (0 : Fin 2) * 256 + (j 0).val = win0_5.index t (0 : Fin 2) * 256 + 1 * (j 0).val; omega
  · show (j 1).val = (win0_5.index t (1 : Fin 2) * 1024 + 1 * (j 1).val) % 1024; omega

/-- WHAT POINT t WRITES BACK to the second output is block t of the flat attention weights. -/
theorem flushed6_eq (c : Dev nD) (t : Fin cfg0.N) :
    (dats m 0 c).flushed 6 t
      = ((cfg0.win 6).blk t).view.read (Elt Ideal) (flatAlign (argX m c) (argC m c) (argW m c)) := by
  show (cfg0.win 6).cut (grid0.coords t) ((dats m 0 c).after 6 t) = _
  rw [after0_6]
  unfold out0_6
  rw [View.canon_unit_zero hz2]
  simp only [View.ld_unit_zero (S := S1x256x1024) hz3, View.ld_unit_zero (S := S1x1024x1024) hz3,
    View.ld_unit_zero (S := S1024x1024) hz2]
  obtain ⟨a0, a1, a2, b0, b1, b2, c0, c1, d0, d1, f0, f1, g0, g1, hq, hb⟩ := idx_facts t
  funext j
  have hj0 : (j 0).val < 256 := (j 0).isLt
  have hj1 : (j 1).val < 1024 := (j 1).isLt
  refine (block_align (argX m c) (argC m c) (argW m c) (iblk m c 0 t) (iblk m c 1 t) (iblk m c 2 t)
    ⟨win0_5.index t (1 : Fin 2), hb⟩ ⟨win0_5.index t (0 : Fin 2), hq⟩
    (blk0_at m c t _ _ a0 a1 a2) (blk1_at m c t _ b0 b1 b2) (blk2_at m c t c0 c1) j).trans ?_
  refine weight_congr _ _ _ ?_ ?_ ?_
  · show win0_5.index t (1 : Fin 2) = (win0_6.index t (1 : Fin 2) * 1024 + 1 * (j 1).val) / 1024; omega
  · show win0_5.index t (0 : Fin 2) * 256 + (j 0).val = win0_6.index t (0 : Fin 2) * 256 + 1 * (j 0).val; omega
  · show (j 1).val = (win0_6.index t (1 : Fin 2) * 1024 + 1 * (j 1).val) % 1024; omega

/-! ## The blocks tile the matrices -/

/-- An index is in point t's block of the first output iff each coordinate is in the block's range. -/
theorem mem_blk5 (t : Fin cfg0.N) (i : S512x32768.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v5_0).slice (win0_5.rect t)).set ↔ _
  rw [View.set_slice_whole, Rect.mem_set_unit]
  exact Iff.rfl

theorem mem_blk6 (t : Fin cfg0.N) (i : S512x32768.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v5_1).slice (win0_6.rect t)).set ↔ _
  rw [View.set_slice_whole, Rect.mem_set_unit]
  exact Iff.rfl

/-- Every entry of the first output matrix is in the block of the point (i0 / 256, i1 / 1024). -/
theorem cover5 (i : S512x32768.Idx) :
    ∃ t : Fin cfg0.N, (cfg0.win 5).flush t = true ∧ i ∈ ((cfg0.win 5).blk t).view.set := by
  have hi0 : (i 0).val < 512 := (i 0).isLt
  have hi1 : (i 1).val < 32768 := (i 1).isLt
  obtain ⟨t, ht⟩ := idx_onto5 ⟨(i 0).val / 256, by omega⟩ ⟨(i 1).val / 1024, by omega⟩
  have q0 : win0_5.index t (0 : Fin 2) = (i 0).val / 256 := congrFun ht 0
  have q1 : win0_5.index t (1 : Fin 2) = (i 1).val / 1024 := congrFun ht 1
  refine ⟨t, flush0_5 t, ?_⟩
  rw [mem_blk5]
  intro a
  match a with
  | ⟨0, _⟩ =>
    show win0_5.index t (0 : Fin 2) * 256 ≤ (i 0).val ∧ (i 0).val < win0_5.index t (0 : Fin 2) * 256 + 256; omega
  | ⟨1, _⟩ =>
    show win0_5.index t (1 : Fin 2) * 1024 ≤ (i 1).val ∧ (i 1).val < win0_5.index t (1 : Fin 2) * 1024 + 1024; omega

theorem cover6 (i : S512x32768.Idx) :
    ∃ t : Fin cfg0.N, (cfg0.win 6).flush t = true ∧ i ∈ ((cfg0.win 6).blk t).view.set := by
  have hi0 : (i 0).val < 512 := (i 0).isLt
  have hi1 : (i 1).val < 32768 := (i 1).isLt
  obtain ⟨t, ht⟩ := idx_onto6 ⟨(i 0).val / 256, by omega⟩ ⟨(i 1).val / 1024, by omega⟩
  have q0 : win0_6.index t (0 : Fin 2) = (i 0).val / 256 := congrFun ht 0
  have q1 : win0_6.index t (1 : Fin 2) = (i 1).val / 1024 := congrFun ht 1
  refine ⟨t, flush0_6 t, ?_⟩
  rw [mem_blk6]
  intro a
  match a with
  | ⟨0, _⟩ =>
    show win0_6.index t (0 : Fin 2) * 256 ≤ (i 0).val ∧ (i 0).val < win0_6.index t (0 : Fin 2) * 256 + 256; omega
  | ⟨1, _⟩ =>
    show win0_6.index t (1 : Fin 2) * 1024 ≤ (i 1).val ∧ (i 1).val < win0_6.index t (1 : Fin 2) * 1024 + 1024; omega

/-! ## The two matrices after the region -/

/-- THE FIRST OUTPUT MATRIX after the region: the flat attentional outputs of the argument arrays. -/
theorem final5 (c : Dev nD) :
    (dats m 0 c).arrAt 5 cfg0.N = flatAttn (argX m c) (argC m c) (argW m c) (argWo m c) :=
  (dats m 0 c).arrAt_eq_of_cover 5 _ (fun t _ => flushed5_eq m c t) cover5

/-- THE SECOND OUTPUT MATRIX after the region: the flat attention weights. -/
theorem final6 (c : Dev nD) :
    (dats m 0 c).arrAt 6 cfg0.N = flatAlign (argX m c) (argC m c) (argW m c) :=
  (dats m 0 c).arrAt_eq_of_cover 6 _ (fun t _ => flushed6_eq m c t) cover6

end Cert.KernelIdeal.Blocks

end
-- ==== Proof.Relayout.lean ====
/-
  THE SIDE-BY-SIDE MATRICES RE-LAID AS THE TWO RESULTS.

  A matrix [512, 32768] whose row t holds the 32 sequences side by side, entry d of sequence b in column b·1024 + d,
  re-laid row-major as an array [512, 32, 1024], holds at (t, b, d) the matrix's entry (t, b·1024 + d): the two have the
  same row-major position, t·32768 + b·1024 + d = (t·32 + b)·1024 + d. Since d < 1024, that column's quotient by 1024 is
  b and its remainder is d, so the re-laid matrices of outputs and of weights are the two results of the specification.
-/
import proofs.«165455_j1580547969021_2_alg».proof.Proof.Flat
import Idealize.ShloMosaic.Lib.Pipeline.Value
import Idealize.ShloMosaic.Lib.ValueIdx

noncomputable section

namespace Cert.Attn.Relayout

open Idealize.ShloMosaic Idealize.ShloMosaic.ValueIdx

variable (X : (⟨3, ![32, 512, 1024]⟩ : Shape).Idx → EReal) (C : (⟨3, ![32, 1024, 1024]⟩ : Shape).Idx → EReal)
  (W : (⟨2, ![1024, 1024]⟩ : Shape).Idx → EReal) (Wo : (⟨2, ![1024, 2048]⟩ : Shape).Idx → EReal)

/-- The column of entry d of sequence b. -/
abbrev col (b : Fin 32) (d : Fin 1024) : Fin 32768 :=
  ⟨b.val * 1024 + d.val, by have := b.isLt; have := d.isLt; omega⟩

/-- Entry (t, b·1024 + d) of the matrix and entry (t, b, d) of the array sit at the same row-major position. -/
theorem rowMajor_col (t : Fin 512) (b : Fin 32) (d : Fin 1024) :
    ((⟨2, ![512, 32768]⟩ : Shape).rowMajor (ix2 t (col b d))).val
      = ((⟨3, ![512, 32, 1024]⟩ : Shape).rowMajor (ix3 t b d)).val := by
  rw [Shape.rowMajor_val_two, Shape.rowMajor_val_three]
  show t.val * 32768 + (b.val * 1024 + d.val) = (t.val * 32 + b.val) * 1024 + d.val
  omega

/-- The output depends on its three coordinates only through their values. -/
theorem output_congr {b b' : Fin 32} {t t' : Fin 512} {d d' : Fin 1024} (hb : b.val = b'.val) (ht : t.val = t'.val)
    (hd : d.val = d'.val) : output X C W Wo b t d = output X C W Wo b' t' d' := by
  cases Fin.ext hb
  cases Fin.ext ht
  cases Fin.ext hd
  rfl

/-- So does the weight. -/
theorem weight_congr {b b' : Fin 32} {t t' : Fin 512} {s s' : Fin 1024} (hb : b.val = b'.val) (ht : t.val = t'.val)
    (hs : s.val = s'.val) : weight X C W b t s = weight X C W b' t' s' := by
  cases Fin.ext hb
  cases Fin.ext ht
  cases Fin.ext hs
  rfl

/-- The matrix of outputs, re-laid, is the first result. -/
theorem reshape_attn (h : (⟨2, ![512, 32768]⟩ : Shape).ShapeCasts ⟨3, ![512, 32, 1024]⟩) :
    shapeCast (⟨3, ![512, 32, 1024]⟩ : Shape) (flatAttn X C W Wo) h = outAttn X C W Wo := by
  funext i
  obtain ⟨t, b, d, rfl⟩ : ∃ (t : Fin 512) (b : Fin 32) (d : Fin 1024), i = ix3 t b d := ⟨i 0, i 1, i 2, eq_ix3 i⟩
  refine (shapeCast_apply _ h (ix3 t b d) (ix2 t (col b d)) (rowMajor_col t b d)).trans ?_
  have := d.isLt
  exact output_congr X C W Wo (by show (b.val * 1024 + d.val) / 1024 = b.val; omega) rfl
    (by show (b.val * 1024 + d.val) % 1024 = d.val; omega)

/-- The matrix of weights, re-laid, is the second result. -/
theorem reshape_align (h : (⟨2, ![512, 32768]⟩ : Shape).ShapeCasts ⟨3, ![512, 32, 1024]⟩) :
    shapeCast (⟨3, ![512, 32, 1024]⟩ : Shape) (flatAlign X C W) h = outAlign X C W := by
  funext i
  obtain ⟨t, b, d, rfl⟩ : ∃ (t : Fin 512) (b : Fin 32) (d : Fin 1024), i = ix3 t b d := ⟨i 0, i 1, i 2, eq_ix3 i⟩
  refine (shapeCast_apply _ h (ix3 t b d) (ix2 t (col b d)) (rowMajor_col t b d)).trans ?_
  have := d.isLt
  exact weight_congr X C W (by show (b.val * 1024 + d.val) / 1024 = b.val; omega) rfl
    (by show (b.val * 1024 + d.val) % 1024 = d.val; omega)

end Cert.Attn.Relayout

end
-- ==== Proof.KernelRun.lean ====
/-
  THE KERNEL PROGRAM'S RUN, READ.

  After the region the host re-lays each output matrix [512, 32768] as [512, 32, 1024] in row-major order, which sends
  column b·1024 + d of row t to (t, b, d). The matrices being the flat arrays of the specification, the two results
  are the specification's: the attentional outputs and the attention weights, query position first. The four
  argument arrays end as they were launched.
-/
import proofs.«165455_j1580547969021_2_alg».proof.Proof.Gen.KernelIdeal.Frame
import proofs.«165455_j1580547969021_2_alg».proof.Proof.KernelBlocks
import proofs.«165455_j1580547969021_2_alg».proof.Proof.Relayout
import Idealize.ShloMosaic.Lib.StableHlo.Run
import Idealize.ShloMosaic.Lib.Pipeline.Value

noncomputable section

namespace Cert.KernelIdeal.Run

open Cert.KernelIdeal Cert.KernelIdeal.Gen Cert.KernelIdeal.Blocks
open Idealize.ShloMosaic Idealize.ShloMosaic.TcCoe Idealize.ShloMosaic.ValueIdx Idealize.ShloMosaic.StableHlo
open Idealize.SL Idealize.SL.Sem
open Cert.Attn

variable (m : (ℓ : Loc nD τ sig) → Buf (Elt Ideal) ℓ) (ρ : Dev nD → PrngReg)

/-- The first result is the first output matrix re-laid. -/
theorem tail_attn (c : Dev nD) :
    (Pipeline.afterTail₀ cfgs (dats m) 0 (V0 m) [hostOps1] c main_v6 : S512x32x1024.Idx → EReal)
      = shapeCast S512x32x1024 ((dats m 0 c).arrAt 5 cfg0.N : S512x32768.Idx → EReal)
          shapeCasts_S512x32768_S512x32x1024 := by
  unfold Pipeline.afterTail₀
  show StableHlo.after hostOps1 _ (Proc.devRef .tc main_v6) = _
  after_results
  exact congrArg (fun A : S512x32768.Idx → EReal => shapeCast S512x32x1024 A shapeCasts_S512x32768_S512x32x1024)
    (Pipeline.withArrays_arr spec0 launch0.win.arr_inj c (V0 m c) (fun w => (dats m 0 c).arrAt w (cfgs 0).N) 5)

/-- The second result is the second output matrix re-laid. -/
theorem tail_align (c : Dev nD) :
    (Pipeline.afterTail₀ cfgs (dats m) 0 (V0 m) [hostOps1] c main_v7 : S512x32x1024.Idx → EReal)
      = shapeCast S512x32x1024 ((dats m 0 c).arrAt 6 cfg0.N : S512x32768.Idx → EReal)
          shapeCasts_S512x32768_S512x32x1024 := by
  unfold Pipeline.afterTail₀
  show StableHlo.after hostOps1 _ (Proc.devRef .tc main_v7) = _
  after_results
  exact congrArg (fun A : S512x32768.Idx → EReal => shapeCast S512x32x1024 A shapeCasts_S512x32768_S512x32x1024)
    (Pipeline.withArrays_arr spec0 launch0.win.arr_inj c (V0 m c) (fun w => (dats m 0 c).arrAt w (cfgs 0).N) 6)

/-- The first result is the specification's attentional outputs of the argument arrays. -/
theorem result_attn (c : Dev nD) :
    (Pipeline.afterTail₀ cfgs (dats m) 0 (V0 m) [hostOps1] c main_v6 : S512x32x1024.Idx → EReal)
      = outAttn (argX m c) (argC m c) (argW m c) (argWo m c) := by
  rw [tail_attn, final5]
  exact Relayout.reshape_attn _ _ _ _ _

/-- The second result is the specification's attention weights. -/
theorem result_align (c : Dev nD) :
    (Pipeline.afterTail₀ cfgs (dats m) 0 (V0 m) [hostOps1] c main_v7 : S512x32x1024.Idx → EReal)
      = outAlign (argX m c) (argC m c) (argW m c) := by
  rw [tail_align, final6]
  exact Relayout.reshape_align _ _ _ _

/-- THE RUN: every weakly fair execution of the kernel program terminates, nothing faulting, with the two results at
    the specification's functions of the argument arrays and the argument arrays unchanged. -/
theorem run : θ_run defs (onTc (τ := τ) (main (F := Ideal))) ⟨m, fun _ => 0, ρ⟩ fun r => ∀ c : Dev nD,
      r.2.mem ((c.tc : Thread nD τ).loc main_v6) = outAttn (argX m c) (argC m c) (argW m c) (argWo m c)
      ∧ r.2.mem ((c.tc : Thread nD τ).loc main_v7) = outAlign (argX m c) (argC m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (result_attn m c),
      ((h c).2 main_v7 (Pipeline.mem_restRefs_of main_v7 (by decide) (by decide))).trans (result_align m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.RefValue.lean ====
/-
  THE REFERENCE'S TWO RESULTS, ENTRY BY ENTRY.

  The reference computes global attention one whole-array operation at a time: a projection of the queries, the
  scores against the memory, a softmax along the memory axis (a maximum taken from minus infinity and met once more
  with minus infinity, a subtraction, an exponential, a sum from zero, a quotient), the weighted memory, the
  concatenation of that with the queries, the output projection, a hyperbolic tangent, and two transpositions that
  put the query position first. Read at an entry (b, t, .) each stage is the corresponding sum or quotient of the
  specification. The one law used is that a sum over the 2048 columns of the concatenation splits into the sum over
  its first 1024 columns, where it holds the weighted memory, and the sum over its last 1024, where it holds the query.
  No entry is assumed finite.
-/
import proofs.«165455_j1580547969021_2_alg».proof.Proof.Gen.ReferenceIdeal.Read
import proofs.«165455_j1580547969021_2_alg».proof.Proof.Spec
import Idealize.ShloMosaic.Lib.Pipeline.Value
import Idealize.ShloMosaic.Lib.ValueIdx
import Idealize.ShloMosaic.PureOps.Ideal.Laws
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx
  Cert.Attn Cert.Lib

variable (x0 : (⟨S32x512x1024, .f32⟩ : BufTy).Contents (Elt Ideal)) (x1 : (⟨S32x1024x1024, .f32⟩ : BufTy).Contents (Elt Ideal))
  (x2 : (⟨S1024x1024, .f32⟩ : BufTy).Contents (Elt Ideal)) (x3 : (⟨S1024x2048, .f32⟩ : BufTy).Contents (Elt Ideal))

/-! ## The projected query and the scores -/

/-- Entry (b, t, e) of the first product is the query's projection onto row e of the input projection. -/
theorem v0_at (b : Fin 32) (t : Fin 512) (e : Fin 1024) :
    val_main_v0 (F := Ideal) x0 x2 (ix3 b t e) = query x0 x2 b t e := by
  rw [val_main_v0_apply]
  unfold query
  refine Finset.sum_congr rfl fun k _ => ?_
  have el : lidx_main_v0 (ix3 b t e) k = ix3 b t k :=
    funext fun a => Fin.ext (by match a with | ⟨0, _⟩ => rfl | ⟨1, _⟩ => rfl | ⟨2, _⟩ => rfl)
  have er : ridx_main_v0 (ix3 b t e) k = ix2 e k :=
    funext fun a => Fin.ext (by match a with | ⟨0, _⟩ => rfl | ⟨1, _⟩ => rfl)
  rw [el, er]

/-- Entry (b, t, s) of the second product is the score of query (b, t) against memory position s. -/
theorem v1_at (b : Fin 32) (t : Fin 512) (s : Fin 1024) :
    val_main_v1 (F := Ideal) x0 x1 x2 (ix3 b t s) = score x0 x1 x2 b t s := by
  rw [val_main_v1_apply]
  unfold score
  refine Finset.sum_congr rfl fun k _ => ?_
  have el : lidx_main_v1 (ix3 b t s) k = ix3 b t k :=
    funext fun a => Fin.ext (by match a with | ⟨0, _⟩ => rfl | ⟨1, _⟩ => rfl | ⟨2, _⟩ => rfl)
  have er : ridx_main_v1 (ix3 b t s) k = ix3 b s k :=
    funext fun a => Fin.ext (by match a with | ⟨0, _⟩ => rfl | ⟨1, _⟩ => rfl | ⟨2, _⟩ => rfl)
  rw [el, er, v0_at]

/-! ## The softmax along the memory axis -/

/-- Inserting the coordinate k on the last axis over the entry (b, t) of a [32, 512] array gives (b, t, k). -/
theorem lift_last (h : S32x512x1024.Reduces [(2 : Fin 3)] S32x512) (b : Fin 32) (t : Fin 512)
    (k : Fin (S32x512x1024.size (2 : Fin 3))) :
    h.lift (ix2 b t) k = ix3 b t (⟨k.val, k.isLt⟩ : Fin 1024) := by
  funext c
  apply Fin.ext
  rw [Shape.Reduces.lift_val]
  unfold Shape.Reduces.liftVal
  match c with
  | ⟨0, _⟩ => simp
  | ⟨1, _⟩ => simp
  | ⟨2, _⟩ => simp

/-- The reduction by maximum at (b, t): the maximum, taken from minus infinity, of the scores of query (b, t). -/
theorem v2_at (b : Fin 32) (t : Fin 512) :
    val_main_v2 (F := Ideal) x0 x1 x2 (ix2 b t)
      = (Finset.univ : Finset (Fin 1024)).fold max (Ideal.ofBits .f32 0xFF800000#32) (fun k => score x0 x1 x2 b t k) := by
  have hred : S32x512x1024.Reduces [(2 : Fin 3)] S32x512 := by decide
  have e : (val_main_v1 (F := Ideal) x0 x1 x2 ∘ hred.lift (ix2 b t)) = fun k : Fin 1024 => score x0 x1 x2 b t k :=
    funext fun k => by
      show val_main_v1 (F := Ideal) x0 x1 x2 (hred.lift (ix2 b t) k) = _
      rw [lift_last hred b t k, v1_at]
      rfl
  unfold val_main_v2
  rw [Host.reduce_eq_fold_single FloatOps.maximumf _ _ reducesTo_S32x512x1024_S32x512_d2 hred h_S_ (ix2 b t), e]
  rfl

/-- Met once more with minus infinity, it is the row maximum of the specification. -/
theorem v4_at (b : Fin 32) (t : Fin 512) :
    val_main_v4 (F := Ideal) x0 x1 x2 (ix2 b t) = rowMax (fun k => score x0 x1 x2 b t k) := by
  rw [val_main_v4_apply, val_main_v3_apply, val_main_cst_0_apply, v2_at]
  rfl

/-- Broadcast back over the memory axis, every entry (b, t, s) holds that row maximum. -/
theorem v6_at (b : Fin 32) (t : Fin 512) (s : Fin 1024) :
    val_main_v6 (F := Ideal) x0 x1 x2 (ix3 b t s) = rowMax (fun k => score x0 x1 x2 b t k) := by
  have e6 : idx_main_v6 (ix3 b t s) = ix3 b t (0 : Fin 1) :=
    funext fun a => Fin.ext (by match a with | ⟨0, _⟩ => rfl | ⟨1, _⟩ => rfl | ⟨2, _⟩ => rfl)
  have e5 : idx_main_v5 (ix3 b t (0 : Fin 1)) = ix2 b t :=
    funext fun a => Fin.ext (by match a with | ⟨0, _⟩ => rfl | ⟨1, _⟩ => rfl)
  rw [val_main_v6_apply, e6, val_main_v5_apply, e5, v4_at]

/-- The exponential of a score less its row's maximum. -/
theorem v8_at (b : Fin 32) (t : Fin 512) (s : Fin 1024) :
    val_main_v8 (F := Ideal) x0 x1 x2 (ix3 b t s)
      = Ideal.exp (score x0 x1 x2 b t s - rowMax (fun k => score x0 x1 x2 b t k)) := by
  rw [val_main_v8_apply, val_main_v7_apply, v1_at, v6_at]
  rfl

/-- The reduction by addition at (b, t): from zero, the sum of those exponentials over the memory positions. -/
theorem v9_at (b : Fin 32) (t : Fin 512) :
    val_main_v9 (F := Ideal) x0 x1 x2 (ix2 b t)
      = ∑ k : Fin 1024, Ideal.exp (score x0 x1 x2 b t k - rowMax (fun k => score x0 x1 x2 b t k)) := by
  rw [val_main_v9_apply, val_main_cst_1_apply]
  show Ideal.ofBits .f32 0x00000000#32 + _ = _
  rw [Ideal.ofBits_zero_f32, zero_add]
  refine Finset.sum_congr rfl fun k _ => ?_
  have e9 : idx_main_v9 (ix2 b t) k = ix3 b t k :=
    funext fun a => Fin.ext (by match a with | ⟨0, _⟩ => rfl | ⟨1, _⟩ => rfl | ⟨2, _⟩ => rfl)
  rw [e9, v8_at]

/-- The quotient: entry (b, t, s) is the attention weight of memory position s for query (b, t). -/
theorem v12_at (b : Fin 32) (t : Fin 512) (s : Fin 1024) :
    val_main_v12 (F := Ideal) x0 x1 x2 (ix3 b t s) = weight x0 x1 x2 b t s := by
  have e11 : idx_main_v11 (ix3 b t s) = ix3 b t (0 : Fin 1) :=
    funext fun a => Fin.ext (by match a with | ⟨0, _⟩ => rfl | ⟨1, _⟩ => rfl | ⟨2, _⟩ => rfl)
  have e10 : idx_main_v10 (ix3 b t (0 : Fin 1)) = ix2 b t :=
    funext fun a => Fin.ext (by match a with | ⟨0, _⟩ => rfl | ⟨1, _⟩ => rfl)
  rw [val_main_v12_apply, v8_at, val_main_v11_apply, e11, val_main_v10_apply, e10, v9_at]
  rfl

/-! ## The weighted memory, the concatenation and the output projection -/

/-- Entry (b, t, d) of the third product is the memory weighted by the attention weights of query (b, t). -/
theorem v13_at (b : Fin 32) (t : Fin 512) (d : Fin 1024) :
    val_main_v13 (F := Ideal) x0 x1 x2 (ix3 b t d) = context x0 x1 x2 b t d := by
  rw [val_main_v13_apply]
  unfold context
  refine Finset.sum_congr rfl fun k _ => ?_
  have el : lidx_main_v13 (ix3 b t d) k = ix3 b t k :=
    funext fun a => Fin.ext (by match a with | ⟨0, _⟩ => rfl | ⟨1, _⟩ => rfl | ⟨2, _⟩ => rfl)
  have er : ridx_main_v13 (ix3 b t d) k = ix3 b k d :=
    funext fun a => Fin.ext (by match a with | ⟨0, _⟩ => rfl | ⟨1, _⟩ => rfl | ⟨2, _⟩ => rfl)
  rw [el, er, v12_at]

/-- On its first 1024 columns the concatenation holds the weighted memory. -/
theorem v14_lo (b : Fin 32) (t : Fin 512) (e : Fin 1024) :
    val_main_v14 (F := Ideal) x0 x1 x2 (ix3 b t (lo e)) = context x0 x1 x2 b t e := by
  unfold val_main_v14
  refine (concatenate_pair_apply_left _ _ _ concatenates_S32x512x1024_S32x512x1024_S32x512x2048_d2 (ix3 b t (lo e)) rfl
    (ix3 b t e) (fun c => by match c with | ⟨0, _⟩ => rfl | ⟨1, _⟩ => rfl | ⟨2, _⟩ => rfl)).trans ?_
  exact v13_at x0 x1 x2 b t e

/-- On its last 1024 columns it holds the query itself. -/
theorem v14_hi (b : Fin 32) (t : Fin 512) (e : Fin 1024) :
    val_main_v14 (F := Ideal) x0 x1 x2 (ix3 b t (hi e)) = x0 (ix3 b t e) := by
  unfold val_main_v14
  exact concatenate_pair_apply_right _ _ _ concatenates_S32x512x1024_S32x512x1024_S32x512x2048_d2 (ix3 b t (hi e)) rfl rfl
    (ix3 b t e)
    (fun c => by
      match c with
      | ⟨0, _⟩ => exact fun _ => rfl
      | ⟨1, _⟩ => exact fun _ => rfl
      | ⟨2, _⟩ => exact fun h => absurd rfl h)
    (by show e.val + 1024 = 1024 + e.val; omega)

/-- Entry (b, t, d) of the output projection: the sum over the 2048 columns of the concatenation, half by half. -/
theorem v15_at (b : Fin 32) (t : Fin 512) (d : Fin 1024) :
    val_main_v15 (F := Ideal) x0 x1 x2 x3 (ix3 b t d)
      = (∑ e : Fin 1024, context x0 x1 x2 b t e * x3 (ix2 d (lo e)))
        + ∑ e : Fin 1024, x0 (ix3 b t e) * x3 (ix2 d (hi e)) := by
  have hk : ∀ k : Fin 2048,
      val_main_v14 (F := Ideal) x0 x1 x2 (lidx_main_v15 (ix3 b t d) k) * x3 (ridx_main_v15 (ix3 b t d) k)
        = val_main_v14 (F := Ideal) x0 x1 x2 (ix3 b t k) * x3 (ix2 d k) := fun k => by
    have el : lidx_main_v15 (ix3 b t d) k = ix3 b t k :=
      funext fun a => Fin.ext (by match a with | ⟨0, _⟩ => rfl | ⟨1, _⟩ => rfl | ⟨2, _⟩ => rfl)
    have er : ridx_main_v15 (ix3 b t d) k = ix2 d k :=
      funext fun a => Fin.ext (by match a with | ⟨0, _⟩ => rfl | ⟨1, _⟩ => rfl)
    rw [el, er]
  rw [val_main_v15_apply, Finset.sum_congr rfl fun k _ => hk k, sum_halves]
  refine congrArg₂ (· + ·) (Finset.sum_congr rfl fun e _ => ?_) (Finset.sum_congr rfl fun e _ => ?_)
  · rw [v14_lo]
  · rw [v14_hi]

/-- Its hyperbolic tangent is the attentional output. -/
theorem v16_at (b : Fin 32) (t : Fin 512) (d : Fin 1024) :
    val_main_v16 (F := Ideal) x0 x1 x2 x3 (ix3 b t d) = output x0 x1 x2 x3 b t d := by
  rw [val_main_v16_apply, v15_at]
  rfl

/-! ## The two results, query position first -/

/-- The second result: the attention weights, transposed. -/
theorem ref_align : val_main_v18 (F := Ideal) x0 x1 x2 = outAlign x0 x1 x2 := by
  funext i
  have e : idx_main_v18 i
      = ix3 (⟨(i 1).val, (i 1).isLt⟩ : Fin 32) (⟨(i 0).val, (i 0).isLt⟩ : Fin 512) (⟨(i 2).val, (i 2).isLt⟩ : Fin 1024) :=
    funext fun a => Fin.ext (by match a with | ⟨0, _⟩ => rfl | ⟨1, _⟩ => rfl | ⟨2, _⟩ => rfl)
  rw [val_main_v18_apply, e, v12_at]
  rfl

/-- The first result: the attentional outputs, transposed. -/
theorem ref_attn : val_main_v17 (F := Ideal) x0 x1 x2 x3 = outAttn x0 x1 x2 x3 := by
  funext i
  have e : idx_main_v17 i
      = ix3 (⟨(i 1).val, (i 1).isLt⟩ : Fin 32) (⟨(i 0).val, (i 0).isLt⟩ : Fin 512) (⟨(i 2).val, (i 2).isLt⟩ : Fin 1024) :=
    funext fun a => Fin.ext (by match a with | ⟨0, _⟩ => rfl | ⟨1, _⟩ => rfl | ⟨2, _⟩ => rfl)
  rw [val_main_v17_apply, e, v16_at]
  rfl

end Cert.ReferenceIdeal.RefValue

end
-- ==== Proof.lean ====
/-
  GLOBAL ATTENTION: A TILED KERNEL AGAINST THE WHOLE-ARRAY REFERENCE.

  Both programs compute, for 32 sequences of 512 queries against 1024 memory positions of width 1024,
    h = x Wᵀ,  a = h · memoryᵀ,  p = softmax a (the maximum taken from minus infinity),  c = p · memory,
    o = tanh( [c, x] Woᵀ ),
  and return o and p with the query position first. The kernel works on 256 query rows of one sequence at a time,
  narrows some operands to a shorter float format (the identity on the extended reals), applies the two halves of Wo
  to c and to x separately and adds, and writes its results as matrices with the sequences side by side, which the host
  then re-lays; the reference concatenates [c, x], applies Wo whole and transposes. On the extended reals the two agree
  entry by entry: the only law needed is that a sum over 2048 columns is the sum over the first 1024 plus the sum over
  the last 1024, which holds in any commutative monoid, so no input need be finite and the precondition is not used.

  Spec.lean states the common function; KernelBody.lean reads one block of the kernel at an entry; KernelEntry.lean the
  weight operands the region finds; KernelBlocks.lean goes from blocks to the two output matrices; Relayout.lean and
  KernelRun.lean re-lay them and read the kernel program's run; RefValue.lean reads the reference's run.
-/
import proofs.«165455_j1580547969021_2_alg».proof.Defs
import proofs.«165455_j1580547969021_2_alg».proof.Proof.Gen.Kernel
import proofs.«165455_j1580547969021_2_alg».proof.Proof.Gen.Kernel.Skeleton
import proofs.«165455_j1580547969021_2_alg».proof.Proof.Gen.Kernel.Launch
import proofs.«165455_j1580547969021_2_alg».proof.Proof.Gen.Kernel.Points
import proofs.«165455_j1580547969021_2_alg».proof.Proof.Gen.Kernel.Frame
import proofs.«165455_j1580547969021_2_alg».proof.Proof.Gen.KernelIdeal
import proofs.«165455_j1580547969021_2_alg».proof.Proof.Gen.KernelIdeal.Skeleton
import proofs.«165455_j1580547969021_2_alg».proof.Proof.Gen.KernelIdeal.Launch
import proofs.«165455_j1580547969021_2_alg».proof.Proof.Gen.KernelIdeal.Points
import proofs.«165455_j1580547969021_2_alg».proof.Proof.Gen.KernelIdeal.Frame
import proofs.«165455_j1580547969021_2_alg».proof.Proof.Gen.ReferenceIdeal
import proofs.«165455_j1580547969021_2_alg».proof.Proof.Gen.Pre_finite_inputs
import proofs.«165455_j1580547969021_2_alg».proof.Proof.Gen.ReferenceIdeal.Run
import proofs.«165455_j1580547969021_2_alg».proof.Proof.Gen.ReferenceIdeal.Read
import proofs.«165455_j1580547969021_2_alg».proof.Proof.KernelRun
import proofs.«165455_j1580547969021_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference has no kernel: its run, with the results forgotten, is its frame. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the four arguments both programs end with the specification's two arrays: the kernel
    program by its run read block by block, the reference by its run read operation by operation. -/
theorem algebraic : Cert.algebraic_KernelIdeal_ReferenceIdeal := by
  intro m ρ m' ρ' _ hagree
  refine ⟨fun c => Cert.Attn.outAttn (Cert.KernelIdeal.Blocks.argX m c) (Cert.KernelIdeal.Blocks.argC m c)
      (Cert.KernelIdeal.Blocks.argW m c) (Cert.KernelIdeal.Blocks.argWo m c),
    fun c => Cert.Attn.outAlign (Cert.KernelIdeal.Blocks.argX m c) (Cert.KernelIdeal.Blocks.argC m c)
      (Cert.KernelIdeal.Blocks.argW m c),
    Cert.KernelIdeal.Run.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v17_eq _ _ _ _).trans
      ((Cert.ReferenceIdeal.RefValue.ref_attn _ _ _ _).trans ?_)
    rw [(hagree c).1, (hagree c).2.1, (hagree c).2.2.1, (hagree c).2.2.2]
  · refine (Cert.ReferenceIdeal.Read.val_main_v18_eq _ _ _).trans
      ((Cert.ReferenceIdeal.RefValue.ref_align _ _ _).trans ?_)
    rw [(hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
